-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v34)) (v2 : (c : Dev Cert.KernelIdeal.nD) → Buf (Elt Ideal) ((c.tc : Thread Cert.KernelIdeal.nD Cert.KernelIdeal.τ).loc Cert.KernelIdeal.main_v33_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v34) = v1 c
          ∧ r.2.mem ((c.tc : Thread Cert.KernelIdeal.nD Cert.KernelIdeal.τ).loc Cert.KernelIdeal.main_v33_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_v46) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x1 : Shape := ⟨2, ![512, 1]⟩
abbrev S256x1 : Shape := ⟨2, ![256, 1]⟩
abbrev S256x256 : Shape := ⟨2, ![256, 256]⟩
abbrev S65536 : Shape := ⟨1, ![65536]⟩
abbrev S65536x512 : Shape := ⟨2, ![65536, 512]⟩
abbrev S512 : Shape := ⟨1, ![512]⟩
abbrev S512x65536 : Shape := ⟨2, ![512, 65536]⟩
abbrev S256x512 : Shape := ⟨2, ![256, 512]⟩
abbrev S512x512 : Shape := ⟨2, ![512, 512]⟩
abbrev S_ : Shape := ⟨0, ![]⟩

class Facts : Prop where
  bcast_S_S512x1 : S_.BroadcastsInDim S512x1 (![] : Fin 0 → Fin S512x1.rank)
  reducesTo_S512x1_S_d0_1 : S512x1.ReducesTo [0, 1] S_
  h_S_ : 0 < S_.numel
  bcast_S_S256x1 : S_.BroadcastsInDim S256x1 (![] : Fin 0 → Fin S256x1.rank)
  reducesTo_S256x1_S_d0_1 : S256x1.ReducesTo [0, 1] S_
  bcast_S_S256x256 : S_.BroadcastsInDim S256x256 (![] : Fin 0 → Fin S256x256.rank)
  reducesTo_S256x256_S_d0_1 : S256x256.ReducesTo [0, 1] S_
  bcast_S_S65536 : S_.BroadcastsInDim S65536 (![] : Fin 0 → Fin S65536.rank)
  reducesTo_S65536_S_d0 : S65536.ReducesTo [0] S_
  bcast_S_S65536x512 : S_.BroadcastsInDim S65536x512 (![] : Fin 0 → Fin S65536x512.rank)
  reducesTo_S65536x512_S_d0_1 : S65536x512.ReducesTo [0, 1] S_
  bcast_S_S512 : S_.BroadcastsInDim S512 (![] : Fin 0 → Fin S512.rank)
  reducesTo_S512_S_d0 : S512.ReducesTo [0] S_
  bcast_S_S512x65536 : S_.BroadcastsInDim S512x65536 (![] : Fin 0 → Fin S512x65536.rank)
  reducesTo_S512x65536_S_d0_1 : S512x65536.ReducesTo [0, 1] S_
  bcast_S_S256x512 : S_.BroadcastsInDim S256x512 (![] : Fin 0 → Fin S256x512.rank)
  reducesTo_S256x512_S_d0_1 : S256x512.ReducesTo [0, 1] S_
  bcast_S_S512x512 : S_.BroadcastsInDim S512x512 (![] : Fin 0 → Fin S512x512.rank)
  reducesTo_S512x512_S_d0_1 : S512x512.ReducesTo [0, 1] S_

variable [Facts]

def fn_part2 {F : FTy → Type} [FloatOps F] (main_arg7 : FVec F S512x65536 .f32) (main_arg8 : FVec F S256x512 .f32) (main_arg9 : FVec F S512x512 .f32) (main_v33 : IVec S_ 1) : IVec S_ 1 :=
  let main_v34 : FVec F S512x65536 .f32 := Host.absf main_arg7
  let main_cst_12 : FVec F S_ .f32 := constant S_ .f32 0x7F800000#32
  let main_v35 : FVec F S512x65536 .f32 := broadcastInDim S512x65536 ![] bcast_S_S512x65536 main_cst_12
  let main_v36 : IVec S512x65536 1 := cmpf .olt main_v34 main_v35
  let main_c_13 : IVec S_ 1 := constantI S_ 1 1#1
  let main_v37 : IVec S_ 1 := (fun x v => Host.reduce IntOp.andi x v reducesTo_S512x65536_S_d0_1 h_S_) main_v36 main_c_13
  let main_v38 : IVec S_ 1 := andi main_v33 main_v37
  let main_v39 : FVec F S256x512 .f32 := Host.absf main_arg8
  let main_cst_14 : FVec F S_ .f32 := constant S_ .f32 0x7F800000#32
  let main_v40 : FVec F S256x512 .f32 := broadcastInDim S256x512 ![] bcast_S_S256x512 main_cst_14
  let main_v41 : IVec S256x512 1 := cmpf .olt main_v39 main_v40
  let main_c_15 : IVec S_ 1 := constantI S_ 1 1#1
  let main_v42 : IVec S_ 1 := (fun x v => Host.reduce IntOp.andi x v reducesTo_S256x512_S_d0_1 h_S_) main_v41 main_c_15
  let main_v43 : IVec S_ 1 := andi main_v38 main_v42
  let main_v44 : FVec F S512x512 .f32 := Host.absf main_arg9
  let main_cst_16 : FVec F S_ .f32 := constant S_ .f32 0x7F800000#32
  let main_v45 : FVec F S512x512 .f32 := broadcastInDim S512x512 ![] bcast_S_S512x512 main_cst_16
  let main_v46 : IVec S512x512 1 := cmpf .olt main_v44 main_v45
  let main_c_17 : IVec S_ 1 := constantI S_ 1 1#1
  let main_v47 : IVec S_ 1 := (fun x v => Host.reduce IntOp.andi x v reducesTo_S512x512_S_d0_1 h_S_) main_v46 main_c_17
  let main_v48 : IVec S_ 1 := andi main_v43 main_v47
  main_v48

def fn_part1 {F : FTy → Type} [FloatOps F] (main_arg4 : FVec F S65536 .f32) (main_arg5 : FVec F S65536x512 .f32) (main_arg6 : FVec F S512 .f32) (main_arg7 : FVec F S512x65536 .f32) (main_arg8 : FVec F S256x512 .f32) (main_arg9 : FVec F S512x512 .f32) (main_v13 : IVec S_ 1) (main_v16 : IVec S512x1 1) : IVec S_ 1 :=
  let main_c_5 : IVec S_ 1 := constantI S_ 1 1#1
  let main_v17 : IVec S_ 1 := (fun x v => Host.reduce IntOp.andi x v reducesTo_S512x1_S_d0_1 h_S_) main_v16 main_c_5
  let main_v18 : IVec S_ 1 := andi main_v13 main_v17
  let main_v19 : FVec F S65536 .f32 := Host.absf main_arg4
  let main_cst_6 : FVec F S_ .f32 := constant S_ .f32 0x7F800000#32
  let main_v20 : FVec F S65536 .f32 := broadcastInDim S65536 ![] bcast_S_S65536 main_cst_6
  let main_v21 : IVec S65536 1 := cmpf .olt main_v19 main_v20
  let main_c_7 : IVec S_ 1 := constantI S_ 1 1#1
  let main_v22 : IVec S_ 1 := (fun x v => Host.reduce IntOp.andi x v reducesTo_S65536_S_d0 h_S_) main_v21 main_c_7
  let main_v23 : IVec S_ 1 := andi main_v18 main_v22
  let main_v24 : FVec F S65536x512 .f32 := Host.absf main_arg5
  let main_cst_8 : FVec F S_ .f32 := constant S_ .f32 0x7F800000#32
  let main_v25 : FVec F S65536x512 .f32 := broadcastInDim S65536x512 ![] bcast_S_S65536x512 main_cst_8
  let main_v26 : IVec S65536x512 1 := cmpf .olt main_v24 main_v25
  let main_c_9 : IVec S_ 1 := constantI S_ 1 1#1
  let main_v27 : IVec S_ 1 := (fun x v => Host.reduce IntOp.andi x v reducesTo_S65536x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_v33

def fn {F : FTy → Type} [FloatOps F] (main_arg0 : FVec F S512x1 .f32) (main_arg1 : FVec F S256x1 .f32) (main_arg2 : FVec F S256x256 .f32) (main_arg3 : FVec F S512x1 .f32) (main_arg4 : FVec F S65536 .f32) (main_arg5 : FVec F S65536x512 .f32) (main_arg6 : FVec F S512 .f32) (main_arg7 : FVec F S512x65536 .f32) (main_arg8 : FVec F S256x512 .f32) (main_arg9 : FVec F S512x512 .f32) : IVec S_ 1 :=
  let main_v0 : FVec F S512x1 .f32 := Host.absf main_arg0
  let main_cst : FVec F S_ .f32 := constant S_ .f32 0x7F800000#32
  let main_v1 : FVec F S512x1 .f32 := broadcastInDim S512x1 ![] bcast_S_S512x1 main_cst
  let main_v2 : IVec S512x1 1 := cmpf .olt main_v0 main_v1
  let main_c : IVec S_ 1 := constantI S_ 1 1#1
  let main_v3 : IVec S_ 1 := (fun x v => Host.reduce IntOp.andi x v reducesTo_S512x1_S_d0_1 h_S_) main_v2 main_c
  let main_v4 : FVec F S256x1 .f32 := Host.absf main_arg1
  let main_cst_0 : FVec F S_ .f32 := constant S_ .f32 0x7F800000#32
  let main_v5 : FVec F S256x1 .f32 := broadcastInDim S256x1 ![] bcast_S_S256x1 main_cst_0
  let main_v6 : IVec S256x1 1 := cmpf .olt main_v4 main_v5
  let main_c_1 : IVec S_ 1 := constantI S_ 1 1#1
  let main_v7 : IVec S_ 1 := (fun x v => Host.reduce IntOp.andi x v reducesTo_S256x1_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S512x1 .f32 := Host.absf main_arg3
  let main_cst_4 : FVec F S_ .f32 := constant S_ .f32 0x7F800000#32
  let main_v15 : FVec F S512x1 .f32 := broadcastInDim S512x1 ![] bcast_S_S512x1 main_cst_4
  let main_v16 : IVec S512x1 1 := cmpf .olt main_v14 main_v15
  fn_part1 (F := F) main_arg4 main_arg5 main_arg6 main_arg7 main_arg8 main_arg9 main_v13 main_v16
-- ==== Kernel.lean ====
abbrev S512x1 : Shape := ⟨2, ![512, 1]⟩
abbrev S256x1 : Shape := ⟨2, ![256, 1]⟩
abbrev S256x256 : Shape := ⟨2, ![256, 256]⟩
abbrev S65536 : Shape := ⟨1, ![65536]⟩
abbrev S65536x512 : Shape := ⟨2, ![65536, 512]⟩
abbrev S512 : Shape := ⟨1, ![512]⟩
abbrev S512x65536 : Shape := ⟨2, ![512, 65536]⟩
abbrev S256x512 : Shape := ⟨2, ![256, 512]⟩
abbrev S512x512 : Shape := ⟨2, ![512, 512]⟩
abbrev S_ : Shape := ⟨0, ![]⟩
abbrev S1x256 : Shape := ⟨2, ![1, 256]⟩
abbrev S1x65536 : Shape := ⟨2, ![1, 65536]⟩
abbrev S1x512 : Shape := ⟨2, ![1, 512]⟩
abbrev S2048x512 : Shape := ⟨2, ![2048, 512]⟩
abbrev S1x2048 : Shape := ⟨2, ![1, 2048]⟩
abbrev S512x2048 : Shape := ⟨2, ![512, 2048]⟩

abbrev nBuf : Space → Nat
  | .hbm => 52
  | .vmem => 17
  | .smem => 0
  | _ => 0

abbrev bufTy : (tb : Table) → Fin (tcTables nBuf tb) → BufTy
  | .hbm, ⟨0, _⟩ => ⟨S512x1, .f32⟩
  | .hbm, ⟨1, _⟩ => ⟨S256x1, .f32⟩
  | .hbm, ⟨2, _⟩ => ⟨S256x256, .f32⟩
  | .hbm, ⟨3, _⟩ => ⟨S512x1, .f32⟩
  | .hbm, ⟨4, _⟩ => ⟨S65536, .f32⟩
  | .hbm, ⟨5, _⟩ => ⟨S65536x512, .f32⟩
  | .hbm, ⟨6, _⟩ => ⟨S512, .f32⟩
  | .hbm, ⟨7, _⟩ => ⟨S512x65536, .f32⟩
  | .hbm, ⟨8, _⟩ => ⟨S256x512, .f32⟩
  | .hbm, ⟨9, _⟩ => ⟨S512x512, .f32⟩
  | .hbm, ⟨10, _⟩ => ⟨S256x1, .f32⟩
  | .hbm, ⟨11, _⟩ => ⟨S256x1, .f32⟩
  | .hbm, ⟨12, _⟩ => ⟨S_, .f32⟩
  | .hbm, ⟨13, _⟩ => ⟨S256x1, .f32⟩
  | .hbm, ⟨14, _⟩ => ⟨S256x1, .f32⟩
  | .hbm, ⟨15, _⟩ => ⟨S_, .f32⟩
  | .hbm, ⟨16, _⟩ => ⟨S256x1, .f32⟩
  | .hbm, ⟨17, _⟩ => ⟨S256x1, .f32⟩
  | .hbm, ⟨18, _⟩ => ⟨S_, .f32⟩
  | .hbm, ⟨19, _⟩ => ⟨S256x1, .f32⟩
  | .hbm, ⟨20, _⟩ => ⟨S256x1, .f32⟩
  | .hbm, ⟨21, _⟩ => ⟨S256x1, .f32⟩
  | .hbm, ⟨22, _⟩ => ⟨S_, .f32⟩
  | .hbm, ⟨23, _⟩ => ⟨S256x1, .f32⟩
  | .hbm, ⟨24, _⟩ => ⟨S256x1, .f32⟩
  | .hbm, ⟨25, _⟩ => ⟨S256x1, .f32⟩
  | .hbm, ⟨26, _⟩ => ⟨S256x1, .f32⟩
  | .hbm, ⟨27, _⟩ => ⟨S256x1, .f32⟩
  | .hbm, ⟨28, _⟩ => ⟨S256x1, .f32⟩
  | .hbm, ⟨29, _⟩ => ⟨S256x1, .f32⟩
  | .hbm, ⟨30, _⟩ => ⟨S_, .f32⟩
  | .hbm, ⟨31, _⟩ => ⟨S256x1, .f32⟩
  | .hbm, ⟨32, _⟩ => ⟨S256x1, .f32⟩
  | .hbm, ⟨33, _⟩ => ⟨S_, .f32⟩
  | .hbm, ⟨34, _⟩ => ⟨S256x1, .f32⟩
  | .hbm, ⟨35, _⟩ => ⟨S256x1, .f32⟩
  | .hbm, ⟨36, _⟩ => ⟨S1x256, .f32⟩
  | .hbm, ⟨37, _⟩ => ⟨S256x256, .f32⟩
  | .hbm, ⟨38, _⟩ => ⟨S256x256, .f32⟩
  | .hbm, ⟨39, _⟩ => ⟨S256x256, .f32⟩
  | .hbm, ⟨40, _⟩ => ⟨S512x1, .f32⟩
  | .hbm, ⟨41, _⟩ => ⟨S512x1, .f32⟩
  | .hbm, ⟨42, _⟩ => ⟨S512x1, .f32⟩
  | .hbm, ⟨43, _⟩ => ⟨S512x1, .f32⟩
  | .hbm, ⟨44, _⟩ => ⟨S512x1, .f32⟩
  | .hbm, ⟨45, _⟩ => ⟨S1x65536, .f32⟩
  | .hbm, ⟨46, _⟩ => ⟨S1x65536, .f32⟩
  | .hbm, ⟨47, _⟩ => ⟨S1x65536, .f32⟩
  | .hbm, ⟨48, _⟩ => ⟨S1x512, .f32⟩
  | .hbm, ⟨49, _⟩ => ⟨S1x65536, .f32⟩
  | .hbm, ⟨50, _⟩ => ⟨S512x1, .f32⟩
  | .hbm, ⟨51, _⟩ => ⟨S256x256, .f32⟩
  | .local _ .vmem, ⟨0, _⟩ => ⟨S1x512, .f32⟩
  | .local _ .vmem, ⟨1, _⟩ => ⟨S2048x512, .f32⟩
  | .local _ .vmem, ⟨2, _⟩ => ⟨S2048x512, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S512x1, .f32⟩
  | .local _ .vmem, ⟨12, _⟩ => ⟨S512x1, .f32⟩
  | .local _ .vmem, ⟨13, _⟩ => ⟨S1x2048, .f32⟩
  | .local _ .vmem, ⟨14, _⟩ => ⟨S1x2048, .f32⟩
  | .local _ .vmem, ⟨15, _⟩ => ⟨S512x1, .f32⟩
  | .local _ .vmem, ⟨16, _⟩ => ⟨S512x1, .f32⟩
  | _, _ => ⟨S512x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33_0 : Ref sig .tc := ⟨.hbm, 49, rfl⟩
abbrev main_v33_1 : Ref sig .tc := ⟨.hbm, 50, rfl⟩
abbrev main_v34 : Ref sig .tc := ⟨.hbm, 51, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_scratch0 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v35 : BitVec 1 := Scalar.cmpi .eq arg0 c31_i32
  let v36 : BitVec 32 := Scalar.extui v35
  let c0_i32_23 : BitVec 32 := 0#32
  let v37 : BitVec 1 := Scalar.cmpi .ne v36 c0_i32_23
  v37

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S512x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

class Facts₀ : Prop where
  bcast_S_S256x1 : S_.BroadcastsInDim S256x1 (![] : Fin 0 → Fin S256x1.rank)
  transposes_S256x1_S1x256_1_0 : S256x1.Transposes [1, 0] S1x256
  bcast_S256x1_S256x256_0_1 : S256x1.BroadcastsInDim S256x256 (![0, 1] : Fin 2 → Fin S256x256.rank)
  bcast_S1x256_S256x256_0_1 : S1x256.BroadcastsInDim S256x256 (![0, 1] : Fin 2 → Fin S256x256.rank)
  bcast_S512_S512x1_0 : S512.BroadcastsInDim S512x1 (![0] : Fin 1 → Fin S512x1.rank)
  shapeCasts_S65536_S1x65536 : S65536.ShapeCasts S1x65536
  shapeCasts_S256x256_S1x65536 : S256x256.ShapeCasts S1x65536
  shapeCasts_S512x1_S1x512 : S512x1.ShapeCasts S1x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S512x2048_S512x2048_0_0 : ∀ a, (![0, 0] : Fin 2 → Nat) a + S512x2048.size a ≤ S512x2048.size a
  h_S512x2048 : 0 < S512x2048.numel
  broadcasts_S1x2048_S512x2048 : S1x2048.Broadcasts S512x2048
  reduces_S512x2048_S512 : S512x2048.Reduces [1] S512
  shapeCasts_S512_S512x1 : S512.ShapeCasts S512x1
  shapeCasts_S1x65536_S256x256 : S1x65536.ShapeCasts S256x256
  dot_S256x256_S256x1_S256x1_1_0_0_1_n_n_wf : DotDims.WF S256x256 S256x1 S256x1 [1] [0] [0] [1] [] []
  dot_S256x512_S512x1_S256x1_1_0_0_1_n_n_wf : DotDims.WF S256x512 S512x1 S256x1 [1] [0] [0] [1] [] []
  dot_S512x512_S512x1_S512x1_1_0_0_1_n_n_wf : DotDims.WF S512x512 S512x1 S512x1 [1] [0] [0] [1] [] []
  dot_S1x512_S2048x512_S1x2048_1_1_0_0_n_n_wf : DotDims.WF S1x512 S2048x512 S1x2048 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x512.size a ≤ S1x512.size a
  hwx0_0 : ∀ i : grid0.Coords, EltTy.bits .f32 = 32 ∨ (Rect.block (s := S1x512) S1x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S65536x512.size a
  hwx0_1 : ∀ i : grid0.Coords, EltTy.bits .f32 = 32 ∨ (Rect.block (s := S65536x512) S2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x65536.size a
  hwx0_2 : ∀ i : grid0.Coords, EltTy.bits .f32 = 32 ∨ (Rect.block (s := S1x65536) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x65536.size a
  hwx0_3 : ∀ i : grid0.Coords, EltTy.bits .f32 = 32 ∨ (Rect.block (s := S1x65536) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x65536.size a
  hwx0_4 : ∀ i : grid0.Coords, EltTy.bits .f32 = 32 ∨ (Rect.block (s := S1x65536) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x2048.size a ≤ S512x65536.size a
  hwx0_5 : ∀ i : grid0.Coords, EltTy.bits .f32 = 32 ∨ (Rect.block (s := S512x65536) S512x2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x1.size a ≤ S512x1.size a
  hwx0_6 : ∀ i : grid0.Coords, EltTy.bits .f32 = 32 ∨ (Rect.block (s := S512x1) S512x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x1.size a ≤ S512x1.size a
  hwx0_7 : ∀ i : grid0.Coords, EltTy.bits .f32 = 32 ∨ (Rect.block (s := S512x1) S512x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x2048.size a ≤ S1x65536.size a
  hwx0_8 : ∀ i : grid0.Coords, EltTy.bits .f32 = 32 ∨ (Rect.block (s := S1x65536) S1x2048.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x1.size a ≤ S512x1.size a
  hwx0_9 : ∀ i : grid0.Coords, EltTy.bits .f32 = 32 ∨ (Rect.block (s := S512x1) S512x1.size (cc0_transform_9 i) (hinb0_9 i)).WholeWords (EltTy.packing .f32)

variable [Facts₀]

def dot_S256x256_S256x1_S256x1_1_0_0_1_n_n : DotDims S256x256 S256x1 S256x1 where
  lhsContracting := [1]
  rhsContracting := [0]
  lhsNonContracting := [0]
  rhsNonContracting := [1]
  lhsBatch := []
  rhsBatch := []
  wf := dot_S256x256_S256x1_S256x1_1_0_0_1_n_n_wf
def dot_S256x512_S512x1_S256x1_1_0_0_1_n_n : DotDims S256x512 S512x1 S256x1 where
  lhsContracting := [1]
  rhsContracting := [0]
  lhsNonContracting := [0]
  rhsNonContracting := [1]
  lhsBatch := []
  rhsBatch := []
  wf := dot_S256x512_S512x1_S256x1_1_0_0_1_n_n_wf
def dot_S512x512_S512x1_S512x1_1_0_0_1_n_n : DotDims S512x512 S512x1 S512x1 where
  lhsContracting := [1]
  rhsContracting := [0]
  lhsNonContracting := [0]
  rhsNonContracting := [1]
  lhsBatch := []
  rhsBatch := []
  wf := dot_S512x512_S512x1_S512x1_1_0_0_1_n_n_wf
def dot_S1x512_S2048x512_S1x2048_1_1_0_0_n_n : DotDims S1x512 S2048x512 S1x2048 where
  lhsContracting := [1]
  rhsContracting := [1]
  lhsNonContracting := [0]
  rhsNonContracting := [0]
  lhsBatch := []
  rhsBatch := []
  wf := dot_S1x512_S2048x512_S1x2048_1_1_0_0_n_n_wf

abbrev win0_0 : Pipeline.Window sig grid0 :=
  Pipeline.Window.ofSpec (Memref.whole main_v32) S1x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v29) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v30) S1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v31) S1x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S512x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v28) S512x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg3) S512x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v33_0) S1x2048.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v33_1) S512x1.size cc0_transform_9 reads0_9 true true 1 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun _ => false | 9 => fun i => !(k0_cond2 i == 1#1) | ⟨_ + 10, h⟩ => absurd h (Nat.not_lt.2 (Nat.le_add_left _ _))

class Facts : Prop extends Facts₀ where

variable [Facts]
-- ==== ReferenceIdeal.lean ====
abbrev S512x1 : Shape := ⟨2, ![512, 1]⟩
abbrev S256x1 : Shape := ⟨2, ![256, 1]⟩
abbrev S256x256 : Shape := ⟨2, ![256, 256]⟩
abbrev S65536 : Shape := ⟨1, ![65536]⟩
abbrev S65536x512 : Shape := ⟨2, ![65536, 512]⟩
abbrev S512 : Shape := ⟨1, ![512]⟩
abbrev S512x65536 : Shape := ⟨2, ![512, 65536]⟩
abbrev S256x512 : Shape := ⟨2, ![256, 512]⟩
abbrev S512x512 : Shape := ⟨2, ![512, 512]⟩
abbrev S_ : Shape := ⟨0, ![]⟩
abbrev S1x256 : Shape := ⟨2, ![1, 256]⟩
abbrev S65536x1 : Shape := ⟨2, ![65536, 1]⟩

abbrev nBuf : Space → Nat
  | .hbm => 67
  | .vmem => 0
  | .smem => 0
  | _ => 0

abbrev bufTy : (tb : Table) → Fin (tcTables nBuf tb) → BufTy
  | .hbm, ⟨0, _⟩ => ⟨S512x1, .f32⟩
  | .hbm, ⟨1, _⟩ => ⟨S256x1, .f32⟩
  | .hbm, ⟨2, _⟩ => ⟨S256x256, .f32⟩
  | .hbm, ⟨3, _⟩ => ⟨S512x1, .f32⟩
  | .hbm, ⟨4, _⟩ => ⟨S65536, .f32⟩
  | .hbm, ⟨5, _⟩ => ⟨S65536x512, .f32⟩
  | .hbm, ⟨6, _⟩ => ⟨S512, .f32⟩
  | .hbm, ⟨7, _⟩ => ⟨S512x65536, .f32⟩
  | .hbm, ⟨8, _⟩ => ⟨S256x512, .f32⟩
  | .hbm, ⟨9, _⟩ => ⟨S512x512, .f32⟩
  | .hbm, ⟨10, _⟩ => ⟨S256x1, .f32⟩
  | .hbm, ⟨11, _⟩ => ⟨S256x1, .f32⟩
  | .hbm, ⟨12, _⟩ => ⟨S_, .f32⟩
  | .hbm, ⟨13, _⟩ => ⟨S256x1, .f32⟩
  | .hbm, ⟨14, _⟩ => ⟨S256x1, .f32⟩
  | .hbm, ⟨15, _⟩ => ⟨S_, .f32⟩
  | .hbm, ⟨16, _⟩ => ⟨S256x1, .f32⟩
  | .hbm, ⟨17, _⟩ => ⟨S256x1, .f32⟩
  | .hbm, ⟨18, _⟩ => ⟨S_, .f32⟩
  | .hbm, ⟨19, _⟩ => ⟨S256x1, .f32⟩
  | .hbm, ⟨20, _⟩ => ⟨S256x1, .f32⟩
  | .hbm, ⟨21, _⟩ => ⟨S256x1, .f32⟩
  | .hbm, ⟨22, _⟩ => ⟨S_, .f32⟩
  | .hbm, ⟨23, _⟩ => ⟨S256x1, .f32⟩
  | .hbm, ⟨24, _⟩ => ⟨S256x1, .f32⟩
  | .hbm, ⟨25, _⟩ => ⟨S256x1, .f32⟩
  | .hbm, ⟨26, _⟩ => ⟨S256x1, .f32⟩
  | .hbm, ⟨27, _⟩ => ⟨S256x1, .f32⟩
  | .hbm, ⟨28, _⟩ => ⟨S256x1, .f32⟩
  | .hbm, ⟨29, _⟩ => ⟨S256x1, .f32⟩
  | .hbm, ⟨30, _⟩ => ⟨S_, .f32⟩
  | .hbm, ⟨31, _⟩ => ⟨S256x1, .f32⟩
  | .hbm, ⟨32, _⟩ => ⟨S256x1, .f32⟩
  | .hbm, ⟨33, _⟩ => ⟨S_, .f32⟩
  | .hbm, ⟨34, _⟩ => ⟨S256x1, .f32⟩
  | .hbm, ⟨35, _⟩ => ⟨S256x1, .f32⟩
  | .hbm, ⟨36, _⟩ => ⟨S1x256, .f32⟩
  | .hbm, ⟨37, _⟩ => ⟨S256x256, .f32⟩
  | .hbm, ⟨38, _⟩ => ⟨S256x256, .f32⟩
  | .hbm, ⟨39, _⟩ => ⟨S256x256, .f32⟩
  | .hbm, ⟨40, _⟩ => ⟨S65536x1, .f32⟩
  | .hbm, ⟨41, _⟩ => ⟨S512x1, .f32⟩
  | .hbm, ⟨42, _⟩ => ⟨S_, .f32⟩
  | .hbm, ⟨43, _⟩ => ⟨S256x256, .f32⟩
  | .hbm, ⟨44, _⟩ => ⟨S256x256, .f32⟩
  | .hbm, ⟨45, _⟩ => ⟨S65536x1, .f32⟩
  | .hbm, ⟨46, _⟩ => ⟨S65536x1, .f32⟩
  | .hbm, ⟨47, _⟩ => ⟨S65536x1, .f32⟩
  | .hbm, ⟨48, _⟩ => ⟨S65536x1, .f32⟩
  | .hbm, ⟨49, _⟩ => ⟨S256x256, .f32⟩
  | .hbm, ⟨50, _⟩ => ⟨S_, .f32⟩
  | .hbm, ⟨51, _⟩ => ⟨S256x256, .f32⟩
  | .hbm, ⟨52, _⟩ => ⟨S256x256, .f32⟩
  | .hbm, ⟨53, _⟩ => ⟨S256x256, .f32⟩
  | .hbm, ⟨54, _⟩ => ⟨S_, .f32⟩
  | .hbm, ⟨55, _⟩ => ⟨S512x1, .f32⟩
  | .hbm, ⟨56, _⟩ => ⟨S512x1, .f32⟩
  | .hbm, ⟨57, _⟩ => ⟨S512x1, .f32⟩
  | .hbm, ⟨58, _⟩ => ⟨S512x1, .f32⟩
  | .hbm, ⟨59, _⟩ => ⟨S512x1, .f32⟩
  | .hbm, ⟨60, _⟩ => ⟨S512x1, .f32⟩
  | .hbm, ⟨61, _⟩ => ⟨S512x1, .f32⟩
  | .hbm, ⟨62, _⟩ => ⟨S512x1, .f32⟩
  | .hbm, ⟨63, _⟩ => ⟨S_, .f32⟩
  | .hbm, ⟨64, _⟩ => ⟨S512x1, .f32⟩
  | .hbm, ⟨65, _⟩ => ⟨S512x1, .f32⟩
  | .hbm, ⟨66, _⟩ => ⟨S512x1, .f32⟩
  | _, _ => ⟨S512x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_8 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩

abbrev nD : Nat := 1
abbrev τ : Topo := Topo.v7x

variable {F : FTy → Type} [FloatOps F]

class Facts₀ : Prop where
  bcast_S_S256x1 : S_.BroadcastsInDim S256x1 (![] : Fin 0 → Fin S256x1.rank)
  transposes_S256x1_S1x256_1_0 : S256x1.Transposes [1, 0] S1x256
  bcast_S256x1_S256x256_0_1 : S256x1.BroadcastsInDim S256x256 (![0, 1] : Fin 2 → Fin S256x256.rank)
  bcast_S1x256_S256x256_0_1 : S1x256.BroadcastsInDim S256x256 (![0, 1] : Fin 2 → Fin S256x256.rank)
  shapeCasts_S256x256_S65536x1 : S256x256.ShapeCasts S65536x1
  bcast_S_S256x256 : S_.BroadcastsInDim S256x256 (![] : Fin 0 → Fin S256x256.rank)
  bcast_S65536_S65536x1_0 : S65536.BroadcastsInDim S65536x1 (![0] : Fin 1 → Fin S65536x1.rank)
  shapeCasts_S65536x1_S256x256 : S65536x1.ShapeCasts S256x256
  bcast_S_S512x1 : S_.BroadcastsInDim S512x1 (![] : Fin 0 → Fin S512x1.rank)
  bcast_S512_S512x1_0 : S512.BroadcastsInDim S512x1 (![0] : Fin 1 → Fin S512x1.rank)
  dot_S256x256_S256x1_S256x1_1_0_0_1_n_n_wf : DotDims.WF S256x256 S256x1 S256x1 [1] [0] [0] [1] [] []
  dot_S256x512_S512x1_S256x1_1_0_0_1_n_n_wf : DotDims.WF S256x512 S512x1 S256x1 [1] [0] [0] [1] [] []
  dot_S65536x512_S512x1_S65536x1_1_0_0_1_n_n_wf : DotDims.WF S65536x512 S512x1 S65536x1 [1] [0] [0] [1] [] []
  dot_S512x65536_S65536x1_S512x1_1_0_0_1_n_n_wf : DotDims.WF S512x65536 S65536x1 S512x1 [1] [0] [0] [1] [] []
  dot_S512x512_S512x1_S512x1_1_0_0_1_n_n_wf : DotDims.WF S512x512 S512x1 S512x1 [1] [0] [0] [1] [] []

variable [Facts₀]

def dot_S256x256_S256x1_S256x1_1_0_0_1_n_n : DotDims S256x256 S256x1 S256x1 where
  lhsContracting := [1]
  rhsContracting := [0]
  lhsNonContracting := [0]
  rhsNonContracting := [1]
  lhsBatch := []
  rhsBatch := []
  wf := dot_S256x256_S256x1_S256x1_1_0_0_1_n_n_wf
def dot_S256x512_S512x1_S256x1_1_0_0_1_n_n : DotDims S256x512 S512x1 S256x1 where
  lhsContracting := [1]
  rhsContracting := [0]
  lhsNonContracting := [0]
  rhsNonContracting := [1]
  lhsBatch := []
  rhsBatch := []
  wf := dot_S256x512_S512x1_S256x1_1_0_0_1_n_n_wf
def dot_S65536x512_S512x1_S65536x1_1_0_0_1_n_n : DotDims S65536x512 S512x1 S65536x1 where
  lhsContracting := [1]
  rhsContracting := [0]
  lhsNonContracting := [0]
  rhsNonContracting := [1]
  lhsBatch := []
  rhsBatch := []
  wf := dot_S65536x512_S512x1_S65536x1_1_0_0_1_n_n_wf
def dot_S512x65536_S65536x1_S512x1_1_0_0_1_n_n : DotDims S512x65536 S65536x1 S512x1 where
  lhsContracting := [1]
  rhsContracting := [0]
  lhsNonContracting := [0]
  rhsNonContracting := [1]
  lhsBatch := []
  rhsBatch := []
  wf := dot_S512x65536_S65536x1_S512x1_1_0_0_1_n_n_wf
def dot_S512x512_S512x1_S512x1_1_0_0_1_n_n : DotDims S512x512 S512x1 S512x1 where
  lhsContracting := [1]
  rhsContracting := [0]
  lhsNonContracting := [0]
  rhsNonContracting := [1]
  lhsBatch := []
  rhsBatch := []
  wf := dot_S512x512_S512x1_S512x1_1_0_0_1_n_n_wf

class Facts : Prop extends Facts₀ where

variable [Facts]
-- ==== Proof.KPieces.lean ====
/-
  What each case of the kernel body leaves behind, as values.

  The body is run once per case of its two conditionals: at the first tile (the running totals are zeroed first),
  at a middle tile, and at the last tile (the state update is stored as well).  In every case the tile's weight
  update is one store covering the whole block, so the block reads back as that store's value; the running totals
  end at the value stored last (the earlier zero is read back once, inside that value); the state update is one
  covering store whose value reads the totals just stored.
-/
import proofs.«101573_j22960895164747_2_alg».proof.Proof.Gen.KernelIdeal.Frame
import Idealize.ShloMosaic.Lib.Pipeline.Value
import Idealize.ShloMosaic.Lib.Tactic

set_option maxRecDepth 16384

noncomputable section

namespace Cert.KernelIdeal.Cell

open Idealize.ShloMosaic Idealize.ShloMosaic.TcCoe Idealize.SL.Sem Idealize.ShloMosaic.Tactic
open Cert.KernelIdeal Cert.KernelIdeal.Gen

variable {F : FTy → Type} [FloatOps F]

theorem hz : (![0, 0] : Fin 2 → Nat) = fun _ => 0 := funext fun a => by fin_cases a <;> rfl

/-- The first tile's weight update block. -/
theorem out8_A (c : Dev nD) (i : grid0.Coords) (arg1 : Memref sig .tc .vmem S1x512 .f32) (harg1 : arg1.IsWhole) (arg2 : Memref sig .tc .vmem S2048x512 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S1x2048 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i)
    (x0 : Vec F S1x512 .f32) (x1 : Vec F S2048x512 .f32) (x2 : Vec F S1x2048 .f32) (x3 : Vec F S1x2048 .f32) (x4 : Vec F S1x2048 .f32) (x5 : Vec F S512x2048 .f32) (x6 : Vec F S512x1 .f32) (x7 : Vec F S512x1 .f32) :
    out0_A_8 c i arg1 harg1 arg2 harg2 arg3 harg3 arg4 harg4 arg5 harg5 arg6 harg6 arg7 harg7 arg8 harg8 arg9 harg9 arg10 harg10 arg11 harg11 hc0 hc1 x0 x1 x2 x3 x4 x5 x6 x7 = k0_pay4 x0 x1 x2 x3 x4 := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 hc0 hc1 x0 x1 x2 x3 x4 x5 x6 x7)]
  unfold kernelRun0_A
  dsimp only
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S1x512) hz, View.ld_unit_zero (S := S2048x512) hz, View.ld_unit_zero (S := S1x2048) hz]

/-- A middle tile's weight update block. -/
theorem out8_B (c : Dev nD) (i : grid0.Coords) (arg1 : Memref sig .tc .vmem S1x512 .f32) (harg1 : arg1.IsWhole) (arg2 : Memref sig .tc .vmem S2048x512 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S1x2048 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i)
    (x0 : Vec F S1x512 .f32) (x1 : Vec F S2048x512 .f32) (x2 : Vec F S1x2048 .f32) (x3 : Vec F S1x2048 .f32) (x4 : Vec F S1x2048 .f32) (x5 : Vec F S512x2048 .f32) (x6 : Vec F S512x1 .f32) (x7 : Vec F S512x1 .f32) (xs0 : Vec F S512x1 .f32) :
    out0_B_8 c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 = k0_pay4 x0 x1 x2 x3 x4 := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0)]
  unfold kernelRun0_B
  dsimp only
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S1x512) hz, View.ld_unit_zero (S := S2048x512) hz, View.ld_unit_zero (S := S1x2048) hz]

/-- The last tile's weight update block. -/
theorem out8_C (c : Dev nD) (i : grid0.Coords) (arg1 : Memref sig .tc .vmem S1x512 .f32) (harg1 : arg1.IsWhole) (arg2 : Memref sig .tc .vmem S2048x512 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S1x2048 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S1x512 .f32) (x1 : Vec F S2048x512 .f32) (x2 : Vec F S1x2048 .f32) (x3 : Vec F S1x2048 .f32) (x4 : Vec F S1x2048 .f32) (x5 : Vec F S512x2048 .f32) (x6 : Vec F S512x1 .f32) (x7 : Vec F S512x1 .f32) (xs0 : Vec F S512x1 .f32) :
    out0_C_8 c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 = k0_pay4 x0 x1 x2 x3 x4 := by
  unfold out0_C_8
  rw [View.read_writes_eq_canon _ _ _ (cover0_C_8 c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0)]
  unfold kernelRun0_C
  dsimp only
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S1x512) hz, View.ld_unit_zero (S := S2048x512) hz, View.ld_unit_zero (S := S1x2048) hz]

/-- The running totals after the first tile: the tile's contribution added to the zero just stored. -/
theorem sout_A (c : Dev nD) (i : grid0.Coords) (arg1 : Memref sig .tc .vmem S1x512 .f32) (harg1 : arg1.IsWhole) (arg2 : Memref sig .tc .vmem S2048x512 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S1x2048 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i)
    (x0 : Vec F S1x512 .f32) (x1 : Vec F S2048x512 .f32) (x2 : Vec F S1x2048 .f32) (x3 : Vec F S1x2048 .f32) (x4 : Vec F S1x2048 .f32) (x5 : Vec F S512x2048 .f32) (x6 : Vec F S512x1 .f32) (x7 : Vec F S512x1 .f32) :
    sout0_A_0 c i arg1 harg1 arg2 harg2 arg3 harg3 arg4 harg4 arg5 harg5 arg6 harg6 arg7 harg7 arg8 harg8 arg9 harg9 arg10 harg10 arg11 harg11 hc0 hc1 x0 x1 x2 x3 x4 x5 x6 x7 = k0_pay1 (k0_pay5 x5 x3 k0_pay3) := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 hc0 hc1 x0 x1 x2 x3 x4 x5 x6 x7)]
  unfold kernelRun0_A
  dsimp only
  sl_unfold_words
  rw [View.canon_cons_unit_zero (S := S512x1) hz, View.readCov_unit_zero (S := S512x1) _ hz]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S1x2048) hz, View.ld_unit_zero (S := S512x2048) hz, View.ld_unit_zero (S := S512x1) hz]

/-- The running totals after a middle tile: the tile's contribution added to what the tile before left. -/
theorem sout_B (c : Dev nD) (i : grid0.Coords) (arg1 : Memref sig .tc .vmem S1x512 .f32) (harg1 : arg1.IsWhole) (arg2 : Memref sig .tc .vmem S2048x512 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S1x2048 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i)
    (x0 : Vec F S1x512 .f32) (x1 : Vec F S2048x512 .f32) (x2 : Vec F S1x2048 .f32) (x3 : Vec F S1x2048 .f32) (x4 : Vec F S1x2048 .f32) (x5 : Vec F S512x2048 .f32) (x6 : Vec F S512x1 .f32) (x7 : Vec F S512x1 .f32) (xs0 : Vec F S512x1 .f32) :
    sout0_B_0 c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 = k0_pay1 (k0_pay5 x5 x3 xs0) := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S1x2048) hz, View.ld_unit_zero (S := S512x2048) hz, View.ld_unit_zero (S := S512x1) hz]

/-- The running totals after the last tile. -/
theorem sout_C (c : Dev nD) (i : grid0.Coords) (arg1 : Memref sig .tc .vmem S1x512 .f32) (harg1 : arg1.IsWhole) (arg2 : Memref sig .tc .vmem S2048x512 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S1x2048 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S1x512 .f32) (x1 : Vec F S2048x512 .f32) (x2 : Vec F S1x2048 .f32) (x3 : Vec F S1x2048 .f32) (x4 : Vec F S1x2048 .f32) (x5 : Vec F S512x2048 .f32) (x6 : Vec F S512x1 .f32) (x7 : Vec F S512x1 .f32) (xs0 : Vec F S512x1 .f32) :
    sout0_C_0 c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 = k0_pay1 (k0_pay5 x5 x3 xs0) := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S1x2048) hz, View.ld_unit_zero (S := S512x2048) hz, View.ld_unit_zero (S := S512x1) hz]

/-- The state update stored at the last tile reads the totals just stored. -/
theorem out9_C (c : Dev nD) (i : grid0.Coords) (arg1 : Memref sig .tc .vmem S1x512 .f32) (harg1 : arg1.IsWhole) (arg2 : Memref sig .tc .vmem S2048x512 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S1x2048 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S1x512 .f32) (x1 : Vec F S2048x512 .f32) (x2 : Vec F S1x2048 .f32) (x3 : Vec F S1x2048 .f32) (x4 : Vec F S1x2048 .f32) (x5 : Vec F S512x2048 .f32) (x6 : Vec F S512x1 .f32) (x7 : Vec F S512x1 .f32) (xs0 : Vec F S512x1 .f32) :
    out0_C_9 c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 = k0_pay2 x7 (k0_pay1 (k0_pay5 x5 x3 xs0)) x6 := by
  unfold out0_C_9
  rw [View.read_writes_eq_canon _ _ _ (cover0_C_9 c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0)]
  unfold kernelRun0_C
  dsimp only
  sl_unfold_words
  rw [View.canon_unit_zero hz, View.readCov_unit_zero (S := S512x1) _ hz]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S1x2048) hz, View.ld_unit_zero (S := S512x2048) hz, View.ld_unit_zero (S := S512x1) hz]

end Cert.KernelIdeal.Cell

end
-- ==== Proof.KAcc.lean ====
/-
  What the kernel's buffers hold tile by tile.

  Tile t's blocks of the eight inputs are named once, with their literal shapes.  The running totals (the scratch the
  kernel carries from tile to tile) after tile n are defined by recursion on n: tile 0 adds its contribution to zero,
  tile n + 1 adds its contribution to the totals after tile n.  By induction on the tile number these are what the
  scratch holds after every tile; the weight-update block written at tile t is the same function of tile t's blocks
  at every tile; and the state update written at the last tile is a function of the totals after that tile.
-/
import proofs.«101573_j22960895164747_2_alg».proof.Proof.KPieces

set_option maxRecDepth 16384

noncomputable section

namespace Cert.KernelIdeal.Cell

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ)

/-- Tile t's blocks: the activation row (the same at every tile), 2048 rows of D, 2048 positions of C, of the outer
    product and of the weights, 2048 columns of H, the bias column and the state column (the same at every tile). -/
def psiB (c : Dev nD) (t : Fin cfg0.N) : Vec F S1x512 .f32 := iblk m c 0 t
def dB (c : Dev nD) (t : Fin cfg0.N) : Vec F S2048x512 .f32 := iblk m c 1 t
def cB (c : Dev nD) (t : Fin cfg0.N) : Vec F S1x2048 .f32 := iblk m c 2 t
def phiB (c : Dev nD) (t : Fin cfg0.N) : Vec F S1x2048 .f32 := iblk m c 3 t
def wB (c : Dev nD) (t : Fin cfg0.N) : Vec F S1x2048 .f32 := iblk m c 4 t
def hB (c : Dev nD) (t : Fin cfg0.N) : Vec F S512x2048 .f32 := iblk m c 5 t
def biasB (c : Dev nD) (t : Fin cfg0.N) : Vec F S512x1 .f32 := iblk m c 6 t
def zB (c : Dev nD) (t : Fin cfg0.N) : Vec F S512x1 .f32 := iblk m c 7 t

/-- The running totals after tile n. -/
def totals (c : Dev nD) : (n : ℕ) → n < cfg0.N → Vec F S512x1 .f32
  | 0, h => k0_pay1 (k0_pay5 (hB m c ⟨0, h⟩) (phiB m c ⟨0, h⟩) k0_pay3)
  | n + 1, h => k0_pay1 (k0_pay5 (hB m c ⟨n + 1, h⟩) (phiB m c ⟨n + 1, h⟩) (totals c n (Nat.lt_of_succ_lt h)))

/-- At the first tile the scratch ends at the tile's contribution added to zero. -/
theorem scratch_first (c : Dev nD) (t : Fin cfg0.N) (h0 : t.val % 32 = 0) :
    (outsAt0 m c t.val t.isLt).2.2 = k0_pay1 (k0_pay5 (hB m c t) (phiB m c t) k0_pay3) := by
  have hN : cfg0.N = 32 := N_0
  have h1 : ¬t.val % 32 = 31 := by omega
  rw [outsAt0_A m c t h0 h1]
  dsimp only
  exact sout_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)

/-- At every later tile the scratch ends at the tile's contribution added to what the tile before left. -/
theorem scratch_next (c : Dev nD) (t : Fin cfg0.N) (h0 : ¬t.val % 32 = 0) :
    (outsAt0 m c t.val t.isLt).2.2 = k0_pay1 (k0_pay5 (hB m c t) (phiB m c t) (outsAt0 m c (t.val - 1) (Nat.lt_of_le_of_lt (Nat.sub_le _ _) t.isLt)).2.2) := by
  by_cases h1 : t.val % 32 = 31
  · rw [outsAt0_C m c t h0 h1]
    dsimp only
    exact sout_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2
  · rw [outsAt0_B m c t h0 h1]
    dsimp only
    exact sout_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2

/-- The scratch holds the running totals after every tile. -/
theorem scratch_eq (c : Dev nD) : ∀ (n : ℕ) (h : n < cfg0.N), (outsAt0 m c n h).2.2 = totals m c n h
  | 0, h => scratch_first m c ⟨0, h⟩ rfl
  | n + 1, h => by
    have hN : cfg0.N = 32 := N_0
    have h0 : ¬(⟨n + 1, h⟩ : Fin cfg0.N).val % 32 = 0 := by dsimp only; omega
    refine (scratch_next m c ⟨n + 1, h⟩ h0).trans ?_
    show k0_pay1 (k0_pay5 _ _ (outsAt0 m c n _).2.2) = k0_pay1 (k0_pay5 _ _ (totals m c n _))
    rw [scratch_eq c n]

/-- The weight-update block written at tile t. -/
theorem out8_eq (c : Dev nD) (t : Fin cfg0.N) :
    (outsAt0 m c t.val t.isLt).1 = k0_pay4 (psiB m c t) (dB m c t) (cB m c t) (phiB m c t) (wB m c t) := by
  have hN : cfg0.N = 32 := N_0
  by_cases h0 : t.val % 32 = 0
  · have h1 : ¬t.val % 32 = 31 := by omega
    rw [outsAt0_A m c t h0 h1]
    dsimp only
    exact out8_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)
  · by_cases h1 : t.val % 32 = 31
    · rw [outsAt0_C m c t h0 h1]
      dsimp only
      exact out8_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2
    · rw [outsAt0_B m c t h0 h1]
      dsimp only
      exact out8_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2

/-- The state update written at the last tile. -/
theorem out9_eq (c : Dev nD) (t : Fin cfg0.N) (h1 : t.val % 32 = 31) :
    (outsAt0 m c t.val t.isLt).2.1 = k0_pay2 (zB m c t) (totals m c t.val t.isLt) (biasB m c t) := by
  have hN : cfg0.N = 32 := N_0
  have h0 : ¬t.val % 32 = 0 := by omega
  have e9 : (outsAt0 m c t.val t.isLt).2.1 = k0_pay2 (zB m c t) (k0_pay1 (k0_pay5 (hB m c t) (phiB m c t) (outsAt0 m c (t.val - 1) (Nat.lt_of_le_of_lt (Nat.sub_le _ _) t.isLt)).2.2)) (biasB m c t) := by
    rw [outsAt0_C m c t h0 h1]
    dsimp only
    exact out9_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2
  rw [e9, ← scratch_next m c t h0, scratch_eq m c t.val t.isLt]

end Cert.KernelIdeal.Cell

end
-- ==== Proof.LibBlockSum.lean ====
/-
  A sum over a * b consecutive positions taken block by block.

  The positions 0 .. a*b - 1 fall into a blocks of b consecutive ones: position j lies in block j / b at place j % b,
  and block s holds the positions b*s, b*s + 1, .., b*s + b - 1. In a commutative monoid the sum over all positions is
  therefore the sum over the blocks of each block's own sum. Nothing about the summands is used: the law is the
  regrouping of a finite sum, so it holds on the extended reals with their infinities as well.
-/
import Mathlib.Algebra.BigOperators.Fin
import Mathlib.Logic.Equiv.Fin.Basic
import Mathlib.Data.Fintype.BigOperators

open scoped BigOperators

namespace Cert.LibBlockSum

/-- Place jj of block s is a position below a * b. -/
theorem pos_lt {a b : ℕ} (s : Fin a) (jj : Fin b) : b * s.val + jj.val < a * b := by
  have h1 : s.val + 1 ≤ a := s.isLt
  have h2 : jj.val < b := jj.isLt
  calc b * s.val + jj.val < b * s.val + b := by omega
    _ = b * (s.val + 1) := by rw [Nat.mul_add, Nat.mul_one]
    _ ≤ b * a := Nat.mul_le_mul_left b h1
    _ = a * b := Nat.mul_comm b a

/-- The sum over a * b positions is the sum over the a blocks of the sum over each block's b places. -/
theorem sum_blocks {β : Type*} [AddCommMonoid β] (a b : ℕ) (g : Fin (a * b) → β) :
    ∑ j : Fin (a * b), g j = ∑ s : Fin a, ∑ jj : Fin b, g ⟨b * s.val + jj.val, pos_lt s jj⟩ := by
  rw [← Equiv.sum_comp finProdFinEquiv g, Fintype.sum_prod_type]
  refine Finset.sum_congr rfl fun s _ => Finset.sum_congr rfl fun jj _ => congrArg g (Fin.ext ?_)
  show jj.val + b * s.val = b * s.val + jj.val
  exact Nat.add_comm _ _

/-- The same with the blocks counted by naturals below a, as a fold over a run of points produces them: the summand
    of a block number that is out of range is never used. -/
theorem sum_blocks_range {β : Type*} [AddCommMonoid β] (a b : ℕ) (g : Fin (a * b) → β) (f : ℕ → β)
    (hf : ∀ s : Fin a, f s.val = ∑ jj : Fin b, g ⟨b * s.val + jj.val, pos_lt s jj⟩) :
    ∑ s ∈ Finset.range a, f s = ∑ j : Fin (a * b), g j := by
  rw [sum_blocks a b g, Finset.sum_range]
  exact Finset.sum_congr rfl fun s _ => hf s

end Cert.LibBlockSum
-- ==== Proof.Spec.lean ====
/-
  The recurrent cell's two large results, entry by entry, on the extended reals.

  The 256 x 256 grid of synapses is also read as one line of 65536 positions: entry (a, b) sits at position
  a * 256 + b (`pos`), and position j is the entry (j / 256, j % 256) (`cell`).

  * Updated weights (`wNew`): at entry (a, b), with j its position,
        c9 * W(a, b) + c1 * (C(j) * Phi(a, b) + sum over k of psi(k) * D(j, k)).
  * Updated astrocyte state (`zNew`): at row r,
        c999 * z(r) + c001 * ((sum over j of H(r, j) * Phi(cell j)) + (f(r) + u(r))),
    where f is the row-scaled activation and u the input drive.

  The four scale factors are the single-precision words the two programs share; they are never evaluated.
  Two regroupings of finite sums of extended reals are proved here: a product's factors may be swapped under a sum,
  and a sum over 65536 positions is the sum over 32 blocks of 2048 consecutive positions accumulated from zero.
  Both use only that addition and multiplication of extended reals are commutative and associative, so neither
  needs any entry to be finite.
-/
import Idealize.ShloMosaic.PureOps.Ideal
import Idealize.ShloMosaic.PureOps.Ideal.Laws
import Idealize.ShloMosaic.Lib.ValueIdx
import proofs.«101573_j22960895164747_2_alg».proof.Proof.LibBlockSum

noncomputable section

open scoped BigOperators

namespace Cert.Cell

open Idealize.ShloMosaic Idealize.ShloMosaic.ValueIdx

/-- The shared scale factors, as the words both programs print. -/
def c9 : Ideal .f32 := Ideal.ofBits .f32 0x3F666666#32
def c1 : Ideal .f32 := Ideal.ofBits .f32 0x3DCCCCCD#32
def c999 : Ideal .f32 := Ideal.ofBits .f32 0x3F7FBE77#32
def c001 : Ideal .f32 := Ideal.ofBits .f32 0x3A83126F#32

/-- The position of entry (a, b) on the line of 65536. -/
def pos (i : (⟨2, ![256, 256]⟩ : Shape).Idx) : Fin 65536 :=
  ⟨(i 0).val * 256 + (i 1).val, by have h0 := idx2_lt0 i; have h1 := idx2_lt1 i; omega⟩

/-- The entry at position j. -/
def cell (j : Fin 65536) : (⟨2, ![256, 256]⟩ : Shape).Idx :=
  ix2 (⟨j.val / 256, by have := j.isLt; omega⟩ : Fin 256) (⟨j.val % 256, by omega⟩ : Fin 256)

theorem cell_pos (i : (⟨2, ![256, 256]⟩ : Shape).Idx) : cell (pos i) = i := by
  have h0 : (i 0).val < 256 := idx2_lt0 i
  have h1 : (i 1).val < 256 := idx2_lt1 i
  funext a
  apply Fin.ext
  match a with
  | ⟨0, _⟩ => show ((i 0).val * 256 + (i 1).val) / 256 = (i 0).val; omega
  | ⟨1, _⟩ => show ((i 0).val * 256 + (i 1).val) % 256 = (i 1).val; omega

theorem pos_val (i : (⟨2, ![256, 256]⟩ : Shape).Idx) : (pos i).val = (i 0).val * 256 + (i 1).val := rfl

/-- The updated weights. -/
def wNew (W Φ : FVec Ideal ⟨2, ![256, 256]⟩ .f32) (C : FVec Ideal ⟨1, ![65536]⟩ .f32)
    (D : FVec Ideal ⟨2, ![65536, 512]⟩ .f32) (ψ : FVec Ideal ⟨2, ![512, 1]⟩ .f32) : FVec Ideal ⟨2, ![256, 256]⟩ .f32 :=
  fun i => c9 * W i + c1 * (C (ix1 (pos i)) * Φ i + ∑ k : Fin 512, ψ (ix2 k (0 : Fin 1)) * D (ix2 (pos i) k))

/-- The row of an entry of a 512 x 1 column. -/
def rowOf (i : (⟨2, ![512, 1]⟩ : Shape).Idx) : Fin 512 := ⟨(i 0).val, idx2_lt0 i⟩

theorem rowOf_ix2 (r : Fin 512) (u : Fin 1) : rowOf (ix2 r u) = r := rfl

theorem eq_ix2_rowOf (i : (⟨2, ![512, 1]⟩ : Shape).Idx) : i = ix2 (rowOf i) (0 : Fin 1) := by
  have h1 := idx2_lt1 i
  funext a
  apply Fin.ext
  match a with
  | ⟨0, _⟩ => rfl
  | ⟨1, _⟩ => show (i 1).val = 0; omega

/-- Row r of H against the line of Phi. -/
def drive (H : FVec Ideal ⟨2, ![512, 65536]⟩ .f32) (Φ : FVec Ideal ⟨2, ![256, 256]⟩ .f32) (r : Fin 512) : EReal :=
  ∑ j : Fin 65536, H (ix2 r j) * Φ (cell j)

/-- The updated astrocyte state. -/
def zNew (z f u : FVec Ideal ⟨2, ![512, 1]⟩ .f32) (H : FVec Ideal ⟨2, ![512, 65536]⟩ .f32)
    (Φ : FVec Ideal ⟨2, ![256, 256]⟩ .f32) : FVec Ideal ⟨2, ![512, 1]⟩ .f32 :=
  fun i => c999 * z i + c001 * (drive H Φ (rowOf i) + (f i + u i))

/-- Swapping the factors under a sum. -/
theorem sum_mul_comm {ι : Type} [Fintype ι] (f g : ι → EReal) : ∑ k, f k * g k = ∑ k, g k * f k :=
  Finset.sum_congr rfl fun k _ => mul_comm _ _

/-- Three summands regrouped: (a + s) + u = s + (a + u). -/
theorem regroup (a s u : EReal) : (a + s) + u = s + (a + u) := by
  rw [add_comm a s, add_assoc]

/-- A running total that starts at `0 + t 0` and adds `t (n + 1)` at step n + 1 is the sum of the first n + 1 terms. -/
theorem running_total (t : ℕ → EReal) (acc : ℕ → EReal) (h0 : acc 0 = 0 + t 0)
    (hs : ∀ n, acc (n + 1) = acc n + t (n + 1)) : ∀ n, acc n = ∑ s ∈ Finset.range (n + 1), t s
  | 0 => by rw [h0, zero_add, Finset.sum_range_one]
  | n + 1 => by rw [hs n, running_total t acc h0 hs n, Finset.sum_range_succ _ (n + 1)]

/-- The sum over the 65536 positions, taken as 32 blocks of 2048 consecutive positions. -/
theorem sum_by_blocks (g : Fin 65536 → EReal) (f : ℕ → EReal)
    (hf : ∀ s : Fin 32, f s.val = ∑ l : Fin 2048, g ⟨2048 * s.val + l.val, Cert.LibBlockSum.pos_lt (a := 32) s l⟩) :
    ∑ s ∈ Finset.range 32, f s = ∑ j : Fin 65536, g j :=
  Cert.LibBlockSum.sum_blocks_range 32 2048 g f hf

end Cert.Cell

end
-- ==== Proof.LibCast2.lean ====
/-
  A matrix recast as a matrix of another shape, read at an entry.

  A reshape keeps the row-major order of the entries: entry (r, s) of the [c, d] result is the entry (p, q) of the
  [a, b] source that sits at the same row-major position, r * d + s = p * b + q.  Flattening an [a, b] grid to one
  row [1, a * b] or one column [a * b, 1], and cutting such a row or column back into the grid, are instances.
-/
import Idealize.ShloMosaic.Lib.Pipeline.Value
import Idealize.ShloMosaic.Lib.ValueIdx

noncomputable section

namespace Cert.LibCast2

open Idealize.ShloMosaic Idealize.ShloMosaic.ValueIdx

variable {α : Type}

/-- An `[a, b]` array recast as `[c, d]` reads, at `(r, s)`, the source entry `(p, q)` at the same row-major
    position. -/
theorem shapeCast_ab_cd_apply {a b c d : ℕ} (x : (⟨2, ![a, b]⟩ : Shape).Idx → α)
    (h : (⟨2, ![a, b]⟩ : Shape).ShapeCasts ⟨2, ![c, d]⟩) (p : Fin a) (q : Fin b) (r : Fin c) (s : Fin d)
    (hpos : p.val * b + q.val = r.val * d + s.val) : shapeCast ⟨2, ![c, d]⟩ x h (ix2 r s) = x (ix2 p q) :=
  shapeCast_apply x h _ _ (by
    rw [Shape.rowMajor_val_two, Shape.rowMajor_val_two]
    exact hpos)

end Cert.LibCast2

end
-- ==== Proof.Rows.lean ====
/-
  The two results over the flattened line of 65536 positions, and how they meet the grid forms.

  The kernel works on rows: W, C and the outer product Phi are flattened to [1, 65536], the activation column to a
  row [1, 512].  Over the line the weight update at position j is
      c9 * W(j) + c1 * (C(j) * Phi(j) + sum over k of psi(k) * D(j, k)),
  and cutting the line back into the 256 x 256 grid gives `wNew` (`wRow_grid`): every reshape keeps the row-major
  position, and entry (a, b) of the grid is position a * 256 + b of the line.

  The drive of row r is a sum over the line; the kernel takes it tile by tile, 32 tiles of 2048 positions
  (`tiles_total`), and the flattened outer product at position j is Phi at `cell j`.
-/
import proofs.«101573_j22960895164747_2_alg».proof.Proof.Spec
import proofs.«101573_j22960895164747_2_alg».proof.Proof.LibCast2
import proofs.«101573_j22960895164747_2_alg».proof.Proof.LibBlockSum
import Idealize.ShloMosaic.Lib.ValueLayout

noncomputable section

open scoped BigOperators

namespace Cert.Cell

open Idealize.ShloMosaic Idealize.ShloMosaic.ValueIdx

/-- Position l of tile s on the line. -/
def tilePos (s : Fin 32) (l : Fin 2048) : Fin 65536 := ⟨2048 * s.val + l.val, Cert.LibBlockSum.pos_lt (a := 32) s l⟩

theorem tilePos_val (s : Fin 32) (l : Fin 2048) : (tilePos s l).val = 2048 * s.val + l.val := rfl

/-- The weight update over the line. -/
def wRow (Wr Cr Φr : FVec Ideal ⟨2, ![1, 65536]⟩ .f32) (ψr : FVec Ideal ⟨2, ![1, 512]⟩ .f32)
    (D : FVec Ideal ⟨2, ![65536, 512]⟩ .f32) : FVec Ideal ⟨2, ![1, 65536]⟩ .f32 :=
  fun y => c9 * Wr y + c1 * (Cr y * Φr y
    + ∑ k : Fin 512, ψr (ix2 (0 : Fin 1) k) * D (ix2 (⟨(y 1).val, idx2_lt1 y⟩ : Fin 65536) k))

theorem wRow_apply (Wr Cr Φr : FVec Ideal ⟨2, ![1, 65536]⟩ .f32) (ψr : FVec Ideal ⟨2, ![1, 512]⟩ .f32)
    (D : FVec Ideal ⟨2, ![65536, 512]⟩ .f32) (j : Fin 65536) :
    wRow Wr Cr Φr ψr D (ix2 (0 : Fin 1) j)
      = c9 * Wr (ix2 (0 : Fin 1) j) + c1 * (Cr (ix2 (0 : Fin 1) j) * Φr (ix2 (0 : Fin 1) j)
          + ∑ k : Fin 512, ψr (ix2 (0 : Fin 1) k) * D (ix2 j k)) := rfl

/-- Cutting the line back into the grid: the weight update over the flattened inputs, reshaped to 256 x 256, is
    `wNew` of the inputs. -/
theorem wRow_grid (W Φ : FVec Ideal ⟨2, ![256, 256]⟩ .f32) (C : FVec Ideal ⟨1, ![65536]⟩ .f32)
    (D : FVec Ideal ⟨2, ![65536, 512]⟩ .f32) (ψ : FVec Ideal ⟨2, ![512, 1]⟩ .f32)
    (hW hΦ : (⟨2, ![256, 256]⟩ : Shape).ShapeCasts ⟨2, ![1, 65536]⟩)
    (hC : (⟨1, ![65536]⟩ : Shape).ShapeCasts ⟨2, ![1, 65536]⟩)
    (hψ : (⟨2, ![512, 1]⟩ : Shape).ShapeCasts ⟨2, ![1, 512]⟩)
    (hout : (⟨2, ![1, 65536]⟩ : Shape).ShapeCasts ⟨2, ![256, 256]⟩) :
    shapeCast ⟨2, ![256, 256]⟩
        (wRow (shapeCast ⟨2, ![1, 65536]⟩ W hW) (shapeCast ⟨2, ![1, 65536]⟩ C hC) (shapeCast ⟨2, ![1, 65536]⟩ Φ hΦ)
          (shapeCast ⟨2, ![1, 512]⟩ ψ hψ) D) hout
      = wNew W Φ C D ψ := by
  funext i
  obtain ⟨a, b, rfl⟩ : ∃ (a : Fin 256) (b : Fin 256), i = ix2 a b := ⟨i 0, i 1, eq_ix2 i⟩
  have hp : (pos (ix2 a b)).val = a.val * 256 + b.val := rfl
  refine (Cert.LibCast2.shapeCast_ab_cd_apply _ hout (0 : Fin 1) (pos (ix2 a b)) a b (by rw [hp]; omega)).trans ?_
  have eW : shapeCast ⟨2, ![1, 65536]⟩ W hW (ix2 (0 : Fin 1) (pos (ix2 a b))) = W (ix2 a b) :=
    Cert.LibCast2.shapeCast_ab_cd_apply W hW a b (0 : Fin 1) (pos (ix2 a b)) (by rw [hp]; omega)
  have eΦ : shapeCast ⟨2, ![1, 65536]⟩ Φ hΦ (ix2 (0 : Fin 1) (pos (ix2 a b))) = Φ (ix2 a b) :=
    Cert.LibCast2.shapeCast_ab_cd_apply Φ hΦ a b (0 : Fin 1) (pos (ix2 a b)) (by rw [hp]; omega)
  have eC : shapeCast ⟨2, ![1, 65536]⟩ C hC (ix2 (0 : Fin 1) (pos (ix2 a b))) = C (ix1 (pos (ix2 a b))) :=
    shapeCast_a_1a_apply C hC (0 : Fin 1) (pos (ix2 a b))
  have eψ : ∀ k : Fin 512, shapeCast ⟨2, ![1, 512]⟩ ψ hψ (ix2 (0 : Fin 1) k) = ψ (ix2 k (0 : Fin 1)) := fun k =>
    Cert.LibCast2.shapeCast_ab_cd_apply ψ hψ k (0 : Fin 1) (0 : Fin 1) k (by simp)
  rw [wRow_apply, eW, eΦ, eC]
  simp only [eψ]
  rfl

/-- The flattened outer product at position j is the grid's entry `cell j`. -/
theorem flat_cell (Φ : FVec Ideal ⟨2, ![256, 256]⟩ .f32) (hΦ : (⟨2, ![256, 256]⟩ : Shape).ShapeCasts ⟨2, ![1, 65536]⟩)
    (j : Fin 65536) : shapeCast ⟨2, ![1, 65536]⟩ Φ hΦ (ix2 (0 : Fin 1) j) = Φ (cell j) := by
  have hj := j.isLt
  exact Cert.LibCast2.shapeCast_ab_cd_apply Φ hΦ (⟨j.val / 256, by omega⟩ : Fin 256) (⟨j.val % 256, by omega⟩ : Fin 256)
    (0 : Fin 1) j (by show j.val / 256 * 256 + j.val % 256 = 0 * 65536 + j.val; omega)

/-- One tile's share of row r's drive (zero for a tile number out of range). -/
def tileSum (H : FVec Ideal ⟨2, ![512, 65536]⟩ .f32) (Φr : FVec Ideal ⟨2, ![1, 65536]⟩ .f32) (r : Fin 512) (s : ℕ) : EReal :=
  if hs : s < 32 then ∑ l : Fin 2048, H (ix2 r (tilePos ⟨s, hs⟩ l)) * Φr (ix2 (0 : Fin 1) (tilePos ⟨s, hs⟩ l)) else 0

theorem tileSum_of_lt (H : FVec Ideal ⟨2, ![512, 65536]⟩ .f32) (Φr : FVec Ideal ⟨2, ![1, 65536]⟩ .f32) (r : Fin 512)
    (s : Fin 32) : tileSum H Φr r s.val
      = ∑ l : Fin 2048, H (ix2 r (tilePos s l)) * Φr (ix2 (0 : Fin 1) (tilePos s l)) := dif_pos s.isLt

/-- The 32 tiles' shares add up to the sum over the whole line. -/
theorem tiles_total (H : FVec Ideal ⟨2, ![512, 65536]⟩ .f32) (Φr : FVec Ideal ⟨2, ![1, 65536]⟩ .f32) (r : Fin 512) :
    ∑ s ∈ Finset.range 32, tileSum H Φr r s = ∑ j : Fin 65536, H (ix2 r j) * Φr (ix2 (0 : Fin 1) j) :=
  sum_by_blocks (fun j => H (ix2 r j) * Φr (ix2 (0 : Fin 1) j)) (tileSum H Φr r) fun s => tileSum_of_lt H Φr r s

/-- The state update from a column of row totals. -/
def zCol (z tot bias : FVec Ideal ⟨2, ![512, 1]⟩ .f32) : FVec Ideal ⟨2, ![512, 1]⟩ .f32 :=
  fun i => c999 * z i + c001 * (tot i + bias i)

/-- When the totals are the 32 tiles' shares over the flattened outer product and the bias is f + u, the state update is
    `zNew`. -/
theorem zCol_eq (z f u tot : FVec Ideal ⟨2, ![512, 1]⟩ .f32) (H : FVec Ideal ⟨2, ![512, 65536]⟩ .f32)
    (Φ : FVec Ideal ⟨2, ![256, 256]⟩ .f32) (hΦ : (⟨2, ![256, 256]⟩ : Shape).ShapeCasts ⟨2, ![1, 65536]⟩)
    (htot : ∀ r : Fin 512, tot (ix2 r (0 : Fin 1)) = ∑ s ∈ Finset.range 32, tileSum H (shapeCast ⟨2, ![1, 65536]⟩ Φ hΦ) r s) :
    zCol z tot (addf f u) = zNew z f u H Φ := by
  funext i
  have hi := eq_ix2_rowOf i
  have hd : tot i = drive H Φ (rowOf i) := by
    rw [hi, htot, tiles_total, rowOf_ix2]
    exact Finset.sum_congr rfl fun j _ => congrArg (H (ix2 (rowOf i) j) * ·) (flat_cell Φ hΦ j)
  show c999 * z i + c001 * (tot i + (f i + u i)) = c999 * z i + c001 * (drive H Φ (rowOf i) + (f i + u i))
  rw [hd]

end Cert.Cell

end
-- ==== Proof.KBlocks.lean ====
/-
  Each window's block at tile t, read off the array the window is cut from.

  A block's entry sits in its array at (block number) * (block extent) + (the entry's coordinate), axis by axis.  The
  block numbers are decided once over the 32 tiles: the activation row, the bias column and the state column are single
  blocks (number 0 on both axes at every tile); D moves down its rows with the tile; the flattened C, outer product and
  weights, and H, move along their second axis with the tile.  The two outputs sit likewise: tile t's weight-update
  block at positions 2048 t .. 2048 t + 2047 of the line, the state update as one whole block.
-/
import proofs.«101573_j22960895164747_2_alg».proof.Proof.KAcc
import proofs.«101573_j22960895164747_2_alg».proof.Proof.Rows

set_option maxRecDepth 16384

noncomputable section

namespace Cert.KernelIdeal.Cell

open Idealize.ShloMosaic Idealize.ShloMosaic.TcCoe Idealize.SL.Sem Idealize.ShloMosaic.ValueIdx
open Cert.KernelIdeal Cert.KernelIdeal.Gen Cert.Cell

variable {F : FTy → Type} [FloatOps F]
variable (m : (ℓ : Loc nD τ sig) → Buf (Elt F) ℓ)

/-- A grid point as a tile number below 32. -/
def tileOf (t : Fin cfg0.N) : Fin 32 := ⟨t.val, lt_of_lt_of_eq t.isLt N_0⟩

theorem tileOf_val (t : Fin cfg0.N) : (tileOf t).val = t.val := rfl

theorem idx0 : ∀ t : Fin cfg0.N, win0_0.index t (0 : Fin 2) = 0 ∧ win0_0.index t (1 : Fin 2) = 0 :=
  (by decide +kernel : ∀ t : Fin grid0.N, _)

theorem idx1 : ∀ t : Fin cfg0.N, win0_1.index t (0 : Fin 2) = t.val ∧ win0_1.index t (1 : Fin 2) = 0 :=
  (by decide +kernel : ∀ t : Fin grid0.N, _)

theorem idx2 : ∀ t : Fin cfg0.N, win0_2.index t (0 : Fin 2) = 0 ∧ win0_2.index t (1 : Fin 2) = t.val :=
  (by decide +kernel : ∀ t : Fin grid0.N, _)

theorem idx3 : ∀ t : Fin cfg0.N, win0_3.index t (0 : Fin 2) = 0 ∧ win0_3.index t (1 : Fin 2) = t.val :=
  (by decide +kernel : ∀ t : Fin grid0.N, _)

theorem idx4 : ∀ t : Fin cfg0.N, win0_4.index t (0 : Fin 2) = 0 ∧ win0_4.index t (1 : Fin 2) = t.val :=
  (by decide +kernel : ∀ t : Fin grid0.N, _)

theorem idx5 : ∀ t : Fin cfg0.N, win0_5.index t (0 : Fin 2) = 0 ∧ win0_5.index t (1 : Fin 2) = t.val :=
  (by decide +kernel : ∀ t : Fin grid0.N, _)

theorem idx6 : ∀ t : Fin cfg0.N, win0_6.index t (0 : Fin 2) = 0 ∧ win0_6.index t (1 : Fin 2) = 0 :=
  (by decide +kernel : ∀ t : Fin grid0.N, _)

theorem idx7 : ∀ t : Fin cfg0.N, win0_7.index t (0 : Fin 2) = 0 ∧ win0_7.index t (1 : Fin 2) = 0 :=
  (by decide +kernel : ∀ t : Fin grid0.N, _)

theorem idx8 : ∀ t : Fin cfg0.N, win0_8.index t (0 : Fin 2) = 0 ∧ win0_8.index t (1 : Fin 2) = t.val :=
  (by decide +kernel : ∀ t : Fin grid0.N, _)

theorem idx9 : ∀ t : Fin cfg0.N, win0_9.index t (0 : Fin 2) = 0 ∧ win0_9.index t (1 : Fin 2) = 0 :=
  (by decide +kernel : ∀ t : Fin grid0.N, _)

/-- The activation row's block is the whole row. -/
theorem psiB_apply (c : Dev nD) (t : Fin cfg0.N) (u : Fin 1) (k : Fin 512) :
    psiB m c t (ix2 u k) = V m c main_v32 (ix2 u k) := by
  obtain ⟨e0, e1⟩ := idx0 t
  unfold psiB iblk
  rw [View.read_apply]
  show V m c main_v32 _ = V m c main_v32 _
  refine congrArg (V m c main_v32) (funext fun ax => Fin.ext ?_)
  match ax with
  | ⟨0, _⟩ => show win0_0.index t (0 : Fin 2) * 1 + 1 * u.val = u.val; rw [e0]; omega
  | ⟨1, _⟩ => show win0_0.index t (1 : Fin 2) * 512 + 1 * k.val = k.val; rw [e1]; omega

/-- Tile t's block of D is its rows 2048 t .. 2048 t + 2047. -/
theorem dB_apply (c : Dev nD) (t : Fin cfg0.N) (l : Fin 2048) (k : Fin 512) :
    dB m c t (ix2 l k) = V m c main_arg5 (ix2 (tilePos (tileOf t) l) k) := by
  obtain ⟨e0, e1⟩ := idx1 t
  unfold dB iblk
  rw [View.read_apply]
  show V m c main_arg5 _ = V m c main_arg5 _
  refine congrArg (V m c main_arg5) (funext fun ax => Fin.ext ?_)
  match ax with
  | ⟨0, _⟩ => show win0_1.index t (0 : Fin 2) * 2048 + 1 * l.val = 2048 * t.val + l.val; rw [e0]; omega
  | ⟨1, _⟩ => show win0_1.index t (1 : Fin 2) * 512 + 1 * k.val = k.val; rw [e1]; omega

/-- Tile t's block of the flattened C is its positions 2048 t .. 2048 t + 2047. -/
theorem cB_apply (c : Dev nD) (t : Fin cfg0.N) (u : Fin 1) (l : Fin 2048) :
    cB m c t (ix2 u l) = V m c main_v29 (ix2 u (tilePos (tileOf t) l)) := by
  obtain ⟨e0, e1⟩ := idx2 t
  unfold cB iblk
  rw [View.read_apply]
  show V m c main_v29 _ = V m c main_v29 _
  refine congrArg (V m c main_v29) (funext fun ax => Fin.ext ?_)
  match ax with
  | ⟨0, _⟩ => show win0_2.index t (0 : Fin 2) * 1 + 1 * u.val = u.val; rw [e0]; omega
  | ⟨1, _⟩ => show win0_2.index t (1 : Fin 2) * 2048 + 1 * l.val = 2048 * t.val + l.val; rw [e1]; omega

/-- Tile t's block of the flattened outer product. -/
theorem phiB_apply (c : Dev nD) (t : Fin cfg0.N) (u : Fin 1) (l : Fin 2048) :
    phiB m c t (ix2 u l) = V m c main_v30 (ix2 u (tilePos (tileOf t) l)) := by
  obtain ⟨e0, e1⟩ := idx3 t
  unfold phiB iblk
  rw [View.read_apply]
  show V m c main_v30 _ = V m c main_v30 _
  refine congrArg (V m c main_v30) (funext fun ax => Fin.ext ?_)
  match ax with
  | ⟨0, _⟩ => show win0_3.index t (0 : Fin 2) * 1 + 1 * u.val = u.val; rw [e0]; omega
  | ⟨1, _⟩ => show win0_3.index t (1 : Fin 2) * 2048 + 1 * l.val = 2048 * t.val + l.val; rw [e1]; omega

/-- Tile t's block of the flattened weights. -/
theorem wB_apply (c : Dev nD) (t : Fin cfg0.N) (u : Fin 1) (l : Fin 2048) :
    wB m c t (ix2 u l) = V m c main_v31 (ix2 u (tilePos (tileOf t) l)) := by
  obtain ⟨e0, e1⟩ := idx4 t
  unfold wB iblk
  rw [View.read_apply]
  show V m c main_v31 _ = V m c main_v31 _
  refine congrArg (V m c main_v31) (funext fun ax => Fin.ext ?_)
  match ax with
  | ⟨0, _⟩ => show win0_4.index t (0 : Fin 2) * 1 + 1 * u.val = u.val; rw [e0]; omega
  | ⟨1, _⟩ => show win0_4.index t (1 : Fin 2) * 2048 + 1 * l.val = 2048 * t.val + l.val; rw [e1]; omega

/-- Tile t's block of H is its columns 2048 t .. 2048 t + 2047. -/
theorem hB_apply (c : Dev nD) (t : Fin cfg0.N) (r : Fin 512) (l : Fin 2048) :
    hB m c t (ix2 r l) = V m c main_arg7 (ix2 r (tilePos (tileOf t) l)) := by
  obtain ⟨e0, e1⟩ := idx5 t
  unfold hB iblk
  rw [View.read_apply]
  show V m c main_arg7 _ = V m c main_arg7 _
  refine congrArg (V m c main_arg7) (funext fun ax => Fin.ext ?_)
  match ax with
  | ⟨0, _⟩ => show win0_5.index t (0 : Fin 2) * 512 + 1 * r.val = r.val; rw [e0]; omega
  | ⟨1, _⟩ => show win0_5.index t (1 : Fin 2) * 2048 + 1 * l.val = 2048 * t.val + l.val; rw [e1]; omega

/-- The bias column's block is the whole column. -/
theorem biasB_apply (c : Dev nD) (t : Fin cfg0.N) (r : Fin 512) (u : Fin 1) :
    biasB m c t (ix2 r u) = V m c main_v28 (ix2 r u) := by
  obtain ⟨e0, e1⟩ := idx6 t
  unfold biasB iblk
  rw [View.read_apply]
  show V m c main_v28 _ = V m c main_v28 _
  refine congrArg (V m c main_v28) (funext fun ax => Fin.ext ?_)
  match ax with
  | ⟨0, _⟩ => show win0_6.index t (0 : Fin 2) * 512 + 1 * r.val = r.val; rw [e0]; omega
  | ⟨1, _⟩ => show win0_6.index t (1 : Fin 2) * 1 + 1 * u.val = u.val; rw [e1]; omega

/-- The state column's block is the whole column. -/
theorem zB_apply (c : Dev nD) (t : Fin cfg0.N) (r : Fin 512) (u : Fin 1) :
    zB m c t (ix2 r u) = V m c main_arg3 (ix2 r u) := by
  obtain ⟨e0, e1⟩ := idx7 t
  unfold zB iblk
  rw [View.read_apply]
  show V m c main_arg3 _ = V m c main_arg3 _
  refine congrArg (V m c main_arg3) (funext fun ax => Fin.ext ?_)
  match ax with
  | ⟨0, _⟩ => show win0_7.index t (0 : Fin 2) * 512 + 1 * r.val = r.val; rw [e0]; omega
  | ⟨1, _⟩ => show win0_7.index t (1 : Fin 2) * 1 + 1 * u.val = u.val; rw [e1]; omega

/-- Where tile t's weight-update block sits in the line. -/
theorem emb8 (t : Fin cfg0.N) (u : Fin 1) (l : Fin 2048) :
    ((cfg0.win 8).blk t).view.emb (ix2 u l) = (ix2 u (tilePos (tileOf t) l) : S1x65536.Idx) := by
  obtain ⟨e0, e1⟩ := idx8 t
  refine funext fun ax => Fin.ext ?_
  match ax with
  | ⟨0, _⟩ => show win0_8.index t (0 : Fin 2) * 1 + 1 * u.val = u.val; rw [e0]; omega
  | ⟨1, _⟩ => show win0_8.index t (1 : Fin 2) * 2048 + 1 * l.val = 2048 * t.val + l.val; rw [e1]; omega

/-- The state update's block is the whole column. -/
theorem emb9 (t : Fin cfg0.N) (r : Fin 512) (u : Fin 1) :
    ((cfg0.win 9).blk t).view.emb (ix2 r u) = (ix2 r u : S512x1.Idx) := by
  obtain ⟨e0, e1⟩ := idx9 t
  refine funext fun ax => Fin.ext ?_
  match ax with
  | ⟨0, _⟩ => show win0_9.index t (0 : Fin 2) * 512 + 1 * r.val = r.val; rw [e0]; omega
  | ⟨1, _⟩ => show win0_9.index t (1 : Fin 2) * 1 + 1 * u.val = u.val; rw [e1]; omega

end Cert.KernelIdeal.Cell

end
-- ==== Proof.LibDotsNT.lean ====
/-
  Matrix products read at an entry, on the extended reals.

  * Right operand contracted on its LAST axis: for dimension numbers that contract the second axis of an [M, K] array
    with the second axis of an [N, K] array, with no batch axes, the product at entry (r, q) is the sum over k of
    left(r, k) * right(q, k) -- for the matrix unit's product into a zero accumulator (`nt_matmul_zero_apply`) and
    for the host's dot_general (`nt_dotGeneral_apply`).
  * The host's dot_general with the plain dimension numbers, [M, K] by [K, N]: at entry (r, q) the sum over k of
    left(r, k) * right(k, q) (`plain_dotGeneral_apply`).
-/
import Idealize.ShloMosaic.PureOps.Ideal
import Idealize.ShloMosaic.PureOps.Ideal.Laws
import Idealize.ShloMosaic.Lib.ValueIdx

noncomputable section

open scoped BigOperators

namespace Cert.LibDotsNT

open Idealize.ShloMosaic Idealize.ShloMosaic.ValueIdx

section NT

variable {M K N : Nat} (d : DotDims ⟨2, ![M, K]⟩ ⟨2, ![N, K]⟩ ⟨2, ![M, N]⟩)
  (hlc : d.lhsContracting = [1]) (hrc : d.rhsContracting = [1]) (hln : d.lhsNonContracting = [0])
  (hrn : d.rhsNonContracting = [0]) (hlb : d.lhsBatch = []) (hrb : d.rhsBatch = [])

include hlc in
theorem nt_rank_contr_one : d.contr.rank = 1 := by rw [d.rank_contr, hlc]; rfl

include hlc in
theorem nt_size_contr_zero : d.contr.size ⟨0, by rw [nt_rank_contr_one d hlc]; exact Nat.one_pos⟩ = K := by
  have := d.size_contr 0 (by rw [hlc]; exact Nat.one_pos)
  rw [this]
  simp [hlc]

include hln hlb in
/-- The left operand is read in the row of the result entry ... -/
theorem nt_lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
/-- ... and the right operand in the row numbered by the result entry's column. -/
theorem nt_rhs_row (j : (⟨2, ![M, N]⟩ : Shape).Idx) (k : d.contr.Idx) : ((d.rhsIdx j k 0 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The contraction's sum re-indexed by the one contracted coordinate. -/
theorem nt_sum_apply {φ₁ φ₂ : FTy} (lhs : FVec Ideal ⟨2, ![M, K]⟩ φ₁) (rhs : FVec Ideal ⟨2, ![N, K]⟩ φ₂) (r : Fin M) (q : Fin N) :
    ∑ k : d.contr.Idx, lhs (d.lhsIdx (ix2 r q) k) * rhs (d.rhsIdx (ix2 r q) k)
      = ∑ k : Fin K, lhs (ix2 r k) * rhs (ix2 q k) := by
  rw [← Equiv.sum_comp (contrEquiv1 d K (nt_rank_contr_one d hlc) (nt_size_contr_zero d hlc)).symm]
  refine Finset.sum_congr rfl fun k _ => ?_
  have hk := contrEquiv1_symm_val d K (nt_rank_contr_one d hlc) (nt_size_contr_zero d hlc) k
  congr 1
  · refine congrArg lhs (funext fun a => Fin.ext ?_)
    match a with
    | ⟨0, _⟩ => exact nt_lhs_row d hln hlb _ _
    | ⟨1, _⟩ => exact (d.lhsIdx_val_of_single hlc _ _).trans hk
  · refine congrArg rhs (funext fun a => Fin.ext ?_)
    match a with
    | ⟨0, _⟩ => exact nt_rhs_row d hln hrn hlb hrb _ _
    | ⟨1, _⟩ => exact (d.rhsIdx_val_of_single hrc _ _).trans hk

include hlc hrc hln hrn hlb hrb in
/-- The matrix unit's product into the zero accumulator at entry (r, q). -/
theorem nt_matmul_zero_apply {φ₁ φ₂ : FTy} (prec : Option ContractPrecision) (lhs : FVec Ideal ⟨2, ![M, K]⟩ φ₁)
    (rhs : FVec Ideal ⟨2, ![N, K]⟩ φ₂) (r : Fin M) (q : Fin N) :
    FloatOps.matmul d prec lhs rhs (constant ⟨2, ![M, N]⟩ .f32 0x00000000#32) (ix2 r q)
      = ∑ k : Fin K, lhs (ix2 r k) * rhs (ix2 q k) := by
  rw [Ideal.matmul_constant_zero_apply]
  exact nt_sum_apply d hlc hrc hln hrn hlb hrb lhs rhs r q

include hlc hrc hln hrn hlb hrb in
/-- The host's dot_general at entry (r, q). -/
theorem nt_dotGeneral_apply {φ₁ φ₂ : FTy} (prec : Option ContractPrecision) (sched : HostSchedule)
    (lhs : FVec Ideal ⟨2, ![M, K]⟩ φ₁) (rhs : FVec Ideal ⟨2, ![N, K]⟩ φ₂) (r : Fin M) (q : Fin N) :
    FloatOps.dotGeneral d prec sched lhs rhs (ix2 r q) = ∑ k : Fin K, lhs (ix2 r k) * rhs (ix2 q k) := by
  rw [Ideal.dotGeneral_apply]
  exact nt_sum_apply d hlc hrc hln hrn hlb hrb lhs rhs r q

end NT

section Plain

variable {M K N : Nat} (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])

include hlc in
theorem plain_rank_contr_one : d.contr.rank = 1 := by rw [d.rank_contr, hlc]; rfl

include hlc in
theorem plain_size_contr_zero : d.contr.size ⟨0, by rw [plain_rank_contr_one d hlc]; exact Nat.one_pos⟩ = K := by
  have := d.size_contr 0 (by rw [hlc]; exact Nat.one_pos)
  rw [this]
  simp [hlc]

include hln hlb in
theorem plain_lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
theorem plain_rhs_col (j : (⟨2, ![M, N]⟩ : Shape).Idx) (k : d.contr.Idx) : ((d.rhsIdx j k 1 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The host's dot_general with the plain dimension numbers at entry (r, q). -/
theorem plain_dotGeneral_apply {φ₁ φ₂ : FTy} (prec : Option ContractPrecision) (sched : HostSchedule)
    (lhs : FVec Ideal ⟨2, ![M, K]⟩ φ₁) (rhs : FVec Ideal ⟨2, ![K, N]⟩ φ₂) (r : Fin M) (q : Fin N) :
    FloatOps.dotGeneral d prec sched lhs rhs (ix2 r q) = ∑ k : Fin K, lhs (ix2 r k) * rhs (ix2 k q) := by
  rw [Ideal.dotGeneral_apply,
    ← Equiv.sum_comp (contrEquiv1 d K (plain_rank_contr_one d hlc) (plain_size_contr_zero d hlc)).symm]
  refine Finset.sum_congr rfl fun k _ => ?_
  have hk := contrEquiv1_symm_val d K (plain_rank_contr_one d hlc) (plain_size_contr_zero d hlc) k
  congr 1
  · refine congrArg lhs (funext fun a => Fin.ext ?_)
    match a with
    | ⟨0, _⟩ => exact plain_lhs_row d hln hlb _ _
    | ⟨1, _⟩ => exact (d.lhsIdx_val_of_single hlc _ _).trans hk
  · refine congrArg rhs (funext fun a => Fin.ext ?_)
    match a with
    | ⟨0, _⟩ => exact (d.rhsIdx_val_of_single hrc _ _).trans hk
    | ⟨1, _⟩ => exact plain_rhs_col d hln hrn hlb hrb _ _

end Plain

end Cert.LibDotsNT

end
-- ==== Proof.LibKeepdims.lean ====
/-
  Reading a row sum kept as a column. A sum along the rows of an `[a, b]` array is an `[a]` vector; kept as a
  column it is cast to `[a, 1]` and then spread over `[a, c]`. Read at `(p, q)` each step looks at row `p` only:
  the cast ignores the unit coordinate, the spreading ignores the column, and the sum ranges over the `b` entries
  of row `p`. The three steps are stated one by one, over indices written by their coordinates, and then composed.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` vector cast to the column `[a, 1]` reads, at `(i, u)`, the vector at `i`, whatever the unit
    coordinate `u`: both positions are the `i`-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Putting the summed coordinate `k` back into the reduced index `p` gives the entry `(p, k)`. -/
theorem lift_cols {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A float sum along the second axis from the zero pattern, read at row `p`, is the sum of that row's entries
    on the extended reals. -/
theorem rowSum_apply {m n : ℕ} (src : FVec Ideal ⟨2, ![m, n]⟩ .f32) (h : (⟨2, ![m, n]⟩ : Shape).Reduces [1] (⟨1, ![m]⟩ : Shape))
    (hφ : FKind.Formats .f32) (hacc : (0x00000000#32 : BitVec 32) = 0x00000000#32) (p : Fin m) :
    multiReduction .add [1] (⟨1, ![m]⟩ : Shape) src 0x00000000#32 h hφ hacc (ix1 p) = ∑ k : Fin n, src (ix2 p k) := by
  refine (Ideal.multiReduction_add_single src 0x00000000#32 h hφ hacc (ix1 p)).trans ?_
  exact Finset.sum_congr rfl fun k _ => congrArg src (lift_cols h p k)

/-- The three steps composed: the row sums of an `[a, b]` array, kept as a column and spread over `[a, c]`, read at
    `(p, q)` the sum of row `p`. -/
theorem rowSum_column_apply {a b c : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32)
    (hcast : (⟨1, ![a]⟩ : Shape).ShapeCasts ⟨2, ![a, 1]⟩) (hbc : (⟨2, ![a, 1]⟩ : Shape).Broadcasts ⟨2, ![a, c]⟩)
    (p : Fin a) (q : Fin c) :
    broadcastTo ⟨2, ![a, c]⟩ (shapeCast ⟨2, ![a, 1]⟩ (multiReduction .add [1] (⟨1, ![a]⟩ : Shape) src 0x00000000#32 h hφ hacc) hcast) hbc (ix2 p q)
      = ∑ k : Fin b, src (ix2 p k) :=
  (broadcastTo_a1_ab_apply _ hbc p q).trans ((shapeCast_a_a1_apply _ hcast p 0).trans (rowSum_apply src h hφ hacc p))

/-- One row `[1, b]`, cast to its own shape and spread over `[a, b]`, reads at `(p, q)` the row's entry `q`. -/
theorem row_spread_apply {a b : ℕ} (v : (⟨2, ![1, b]⟩ : Shape).Idx → α) (hcast : (⟨2, ![1, b]⟩ : Shape).ShapeCasts ⟨2, ![1, b]⟩)
    (hbc : (⟨2, ![1, b]⟩ : Shape).Broadcasts ⟨2, ![a, b]⟩) (p : Fin a) (q : Fin b) :
    broadcastTo ⟨2, ![a, b]⟩ (shapeCast ⟨2, ![1, b]⟩ v hcast) hbc (ix2 p q) = v (ix2 (0 : Fin 1) q) :=
  (broadcastTo_1b_ab_apply _ hbc p q).trans (congrFun (shapeCast_self v hcast) _)

end Cert.LibKeepdims

end
-- ==== Proof.KPay.lean ====
/-
  The kernel body's five stored values, read at an entry on the extended reals.

  Per tile of 2048 positions the body computes
    * the weight update of the tile: at position l,
        c9 * W(l) + c1 * (C(l) * Phi(l) + sum over k of psi(k) * D(l, k))
      -- the matrix unit contracts the activation row with each row of the tile of D, and rounding the operands to
      half precision is the identity on the extended reals;
    * the running row totals: at row r, the total so far plus the sum over the tile's positions l of H(r, l) * Phi(l)
      -- the tile of Phi is one row spread over the 512 rows, the products are summed along the row and kept as a column;
    * at the first tile the running totals start from zero, and at the last the state update
        c999 * z(r) + c001 * (total(r) + bias(r)).
-/
import proofs.«101573_j22960895164747_2_alg».proof.Proof.Gen.KernelIdeal.Skeleton
import proofs.«101573_j22960895164747_2_alg».proof.Proof.LibDotsNT
import proofs.«101573_j22960895164747_2_alg».proof.Proof.LibKeepdims
import proofs.«101573_j22960895164747_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Cell

open Idealize.ShloMosaic Idealize.ShloMosaic.ValueIdx Cert.KernelIdeal Cert.KernelIdeal.Gen Cert.Cell

/-- The value stored back into the running totals is the value computed (a cast to the same shape). -/
theorem pay1_eq {F : FTy → Type} [FloatOps F] (v : FVec F S512x1 .f32) : k0_pay1 v = v := by
  unfold k0_pay1
  exact shapeCast_self v _

/-- The running totals start from zero. -/
theorem pay3_apply (i : S512x1.Idx) : k0_pay3 (F := Ideal) i = 0 := by
  unfold k0_pay3
  refine (congrFun (shapeCast_self _ _) i).trans ?_
  exact Ideal.ofBits_zero_f32

/-- One tile's contribution to the row totals. -/
theorem pay5_apply (h : FVec Ideal S512x2048 .f32) (p : FVec Ideal S1x2048 .f32) (acc : FVec Ideal S512x1 .f32)
    (r : Fin 512) :
    k0_pay5 h p acc (ix2 r (0 : Fin 1))
      = acc (ix2 r (0 : Fin 1)) + ∑ l : Fin 2048, h (ix2 r l) * p (ix2 (0 : Fin 1) l) := by
  unfold k0_pay5
  refine congrArg (acc (ix2 r (0 : Fin 1)) + ·) ?_
  refine (Cert.LibKeepdims.shapeCast_a_a1_apply _ shapeCasts_S512_S512x1 r 0).trans ?_
  refine (Cert.LibKeepdims.rowSum_apply _ reduces_S512x2048_S512 (.inl rfl) rfl r).trans ?_
  refine Finset.sum_congr rfl fun l _ => ?_
  refine congrArg (h (ix2 r l) * ·) ?_
  exact Cert.LibKeepdims.row_spread_apply p shapeCasts_S1x2048_S1x2048 broadcasts_S1x2048_S512x2048 r l

/-- The activation row contracted with row l of the tile of D. -/
theorem tile_product (ψ : FVec Ideal S1x512 .f32) (d : FVec Ideal S2048x512 .f32) (l : Fin 2048) :
    matmul dot_S1x512_S2048x512_S1x2048_1_1_0_0_n_n none (truncf .bf16 ψ bitsLt_bf16_f32) (truncf .bf16 d bitsLt_bf16_f32)
        (constant S1x2048 .f32 0x00000000#32) (ix2 (0 : Fin 1) l)
      = ∑ k : Fin 512, ψ (ix2 (0 : Fin 1) k) * d (ix2 l k) :=
  Cert.LibDotsNT.nt_matmul_zero_apply dot_S1x512_S2048x512_S1x2048_1_1_0_0_n_n rfl rfl rfl rfl rfl rfl none
    (truncf .bf16 ψ bitsLt_bf16_f32) (truncf .bf16 d bitsLt_bf16_f32) (0 : Fin 1) l

/-- The tile's weight update with its same-shape casts removed. -/
theorem pay4_eq (ψ : FVec Ideal S1x512 .f32) (d : FVec Ideal S2048x512 .f32) (cb φb wb : FVec Ideal S1x2048 .f32) :
    k0_pay4 (F := Ideal) ψ d cb φb wb
      = addf (mulf (broadcast S1x2048 (Scalar.ofBits .f32 0x3F666666#32)) wb)
          (mulf (broadcast S1x2048 (Scalar.ofBits .f32 0x3DCCCCCD#32))
            (addf (mulf cb φb)
              (matmul dot_S1x512_S2048x512_S1x2048_1_1_0_0_n_n none (truncf .bf16 ψ bitsLt_bf16_f32)
                (truncf .bf16 d bitsLt_bf16_f32) (constant S1x2048 .f32 0x00000000#32)))) := by
  unfold k0_pay4
  simp only [shapeCast_self]

/-- The tile's weight update at position l. -/
theorem pay4_apply (ψ : FVec Ideal S1x512 .f32) (d : FVec Ideal S2048x512 .f32) (cb φb wb : FVec Ideal S1x2048 .f32)
    (l : Fin 2048) :
    k0_pay4 (F := Ideal) ψ d cb φb wb (ix2 (0 : Fin 1) l)
      = c9 * wb (ix2 (0 : Fin 1) l)
        + c1 * (cb (ix2 (0 : Fin 1) l) * φb (ix2 (0 : Fin 1) l) + ∑ k : Fin 512, ψ (ix2 (0 : Fin 1) k) * d (ix2 l k)) := by
  rw [pay4_eq]
  exact congrArg (fun s => c9 * wb (ix2 (0 : Fin 1) l) + c1 * (cb (ix2 (0 : Fin 1) l) * φb (ix2 (0 : Fin 1) l) + s))
    (tile_product ψ d l)

/-- The state update written at the last tile. -/
theorem pay2_apply (z acc zb : FVec Ideal S512x1 .f32) (i : S512x1.Idx) :
    k0_pay2 (F := Ideal) z acc zb i = c999 * z i + c001 * (acc i + zb i) := by
  unfold k0_pay2
  simp only [shapeCast_self]
  rfl

end Cert.KernelIdeal.Cell

end
-- ==== Proof.KRead.lean ====
/-
  What the kernel's buffers hold, read at an entry over the arrays the region finds.

  After tile n the running total of row r is the sum of the first n + 1 tiles' shares of row r's drive -- by induction
  on n, each tile adding its share (the tile's columns of H against the tile's positions of the flattened outer
  product) to what the tile before left, the first to zero.  Tile t's weight-update block at position l is the
  weight update over the line at position 2048 t + l.  The state update stored at the last tile is the column
  c999 * z + c001 * (totals + bias).
-/
import proofs.«101573_j22960895164747_2_alg».proof.Proof.KBlocks
import proofs.«101573_j22960895164747_2_alg».proof.Proof.KPay

set_option maxRecDepth 16384

noncomputable section

open scoped BigOperators

namespace Cert.KernelIdeal.Cell

open Idealize.ShloMosaic Idealize.ShloMosaic.TcCoe Idealize.SL.Sem Idealize.ShloMosaic.ValueIdx
open Cert.KernelIdeal Cert.KernelIdeal.Gen Cert.Cell

variable (m : (ℓ : Loc nD τ sig) → Buf (Elt Ideal) ℓ)

/-- Tile t's share of row r's drive, over the tile's blocks. -/
theorem share (c : Dev nD) (t : Fin cfg0.N) (r : Fin 512) :
    ∑ l : Fin 2048, hB m c t (ix2 r l) * phiB m c t (ix2 (0 : Fin 1) l)
      = tileSum (V m c main_arg7) (V m c main_v30) r t.val := by
  rw [← tileOf_val t, tileSum_of_lt]
  exact Finset.sum_congr rfl fun l _ => by rw [hB_apply, phiB_apply]

/-- The running total of row r after tile n. -/
theorem totals_apply (c : Dev nD) (r : Fin 512) : ∀ (n : ℕ) (h : n < cfg0.N),
    totals m c n h (ix2 r (0 : Fin 1)) = ∑ s ∈ Finset.range (n + 1), tileSum (V m c main_arg7) (V m c main_v30) r s
  | 0, h => by
    have e : totals m c 0 h = k0_pay1 (k0_pay5 (hB m c ⟨0, h⟩) (phiB m c ⟨0, h⟩) (k0_pay3 (F := Ideal))) := rfl
    rw [e, pay1_eq]
    refine (pay5_apply (hB m c ⟨0, h⟩) (phiB m c ⟨0, h⟩) (k0_pay3 (F := Ideal)) r).trans ?_
    rw [pay3_apply, zero_add, Finset.sum_range_one]
    exact share m c ⟨0, h⟩ r
  | n + 1, h => by
    have e : totals m c (n + 1) h
        = k0_pay1 (k0_pay5 (hB m c ⟨n + 1, h⟩) (phiB m c ⟨n + 1, h⟩) (totals m c n (Nat.lt_of_succ_lt h))) := rfl
    rw [e, pay1_eq]
    refine (pay5_apply (hB m c ⟨n + 1, h⟩) (phiB m c ⟨n + 1, h⟩) (totals m c n (Nat.lt_of_succ_lt h)) r).trans ?_
    rw [totals_apply c r n, Finset.sum_range_succ _ (n + 1)]
    exact congrArg (_ + ·) (share m c ⟨n + 1, h⟩ r)

/-- Tile t's weight-update block at position l is the weight update over the line at position 2048 t + l. -/
theorem tile_update (c : Dev nD) (t : Fin cfg0.N) (l : Fin 2048) :
    k0_pay4 (psiB m c t) (dB m c t) (cB m c t) (phiB m c t) (wB m c t) (ix2 (0 : Fin 1) l)
      = wRow (V m c main_v31) (V m c main_v29) (V m c main_v30) (V m c main_v32) (V m c main_arg5)
          (ix2 (0 : Fin 1) (tilePos (tileOf t) l)) := by
  refine (pay4_apply (psiB m c t) (dB m c t) (cB m c t) (phiB m c t) (wB m c t) l).trans ?_
  rw [wRow_apply, wB_apply, cB_apply, phiB_apply]
  simp only [psiB_apply, dB_apply]

/-- The state update stored at tile t over a column of totals. -/
theorem state_update (c : Dev nD) (t : Fin cfg0.N) (tot : FVec Ideal S512x1 .f32) (r : Fin 512) (u : Fin 1) :
    k0_pay2 (zB m c t) tot (biasB m c t) (ix2 r u) = zCol (V m c main_arg3) tot (V m c main_v28) (ix2 r u) := by
  refine (pay2_apply (zB m c t) tot (biasB m c t) (ix2 r u)).trans ?_
  rw [zB_apply, biasB_apply]
  rfl

end Cert.KernelIdeal.Cell

end
-- ==== Proof.KHost.lean ====
/-
  The arrays the kernel's region finds, as functions of the program's arguments.

  Before the region the kernel's program computes, with the very operations the reference uses, the new neuron state,
  the outer product Phi of its logistic, the activation psi = tanh z, the row-scaled activation f and the input drive u.
  It then flattens C, Phi and W to rows of 65536 and psi to a row of 512, and adds f + u into the bias column.  Each array
  is stated here over the reference's own stage of the same arguments, so that the two programs' results can later be
  compared as one term.
-/
import proofs.«101573_j22960895164747_2_alg».proof.Proof.Gen.KernelIdeal.Frame.Runs
import proofs.«101573_j22960895164747_2_alg».proof.Proof.Gen.ReferenceIdeal.Read
import Idealize.ShloMosaic.Lib.StableHlo.Run

set_option maxRecDepth 16384

noncomputable section

namespace Cert.KernelIdeal.Cell

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ)

/-- The outer product of the new neuron state's logistic with itself. -/
abbrev phiOf (c : Dev nD) : FVec F S256x256 .f32 :=
  Cert.ReferenceIdeal.Read.val_main_v23 (F := F) (m ((c : Thread nD τ).loc main_arg0)) (m ((c : Thread nD τ).loc main_arg1)) (m ((c : Thread nD τ).loc main_arg2)) (m ((c : Thread nD τ).loc main_arg8))

/-- The activation tanh z. -/
abbrev psiOf (c : Dev nD) : FVec F S512x1 .f32 := Cert.ReferenceIdeal.Read.val_main_v25 (F := F) (m ((c : Thread nD τ).loc main_arg3))

/-- The row-scaled activation. -/
abbrev fOf (c : Dev nD) : FVec F S512x1 .f32 := Cert.ReferenceIdeal.Read.val_main_v39 (F := F) (m ((c : Thread nD τ).loc main_arg3)) (m ((c : Thread nD τ).loc main_arg6))

/-- The input drive. -/
abbrev uOf (c : Dev nD) : FVec F S512x1 .f32 := Cert.ReferenceIdeal.Read.val_main_v42 (F := F) (m ((c : Thread nD τ).loc main_arg0)) (m ((c : Thread nD τ).loc main_arg9))

/-- The new neuron state: the same operations of the same arguments in both programs. -/
theorem V_v13 (c : Dev nD) : V m c main_v13 = Cert.ReferenceIdeal.Read.val_main_v13 (F := F) (m ((c : Thread nD τ).loc main_arg0)) (m ((c : Thread nD τ).loc main_arg1)) (m ((c : Thread nD τ).loc main_arg2)) (m ((c : Thread nD τ).loc main_arg8)) := by
  show StableHlo.after hostOps0 (fun b => m (c, b)) (Proc.devRef .tc main_v13) = _
  after_results_simp
  rfl

/-- The bias column is f + u. -/
theorem V_v28 (c : Dev nD) : V m c main_v28 = addf (fOf m c) (uOf m c) := by
  show StableHlo.after hostOps0 (fun b => m (c, b)) (Proc.devRef .tc main_v28) = _
  after_results_simp
  rfl

/-- C as a row. -/
theorem V_v29 (c : Dev nD) : V m c main_v29 = shapeCast S1x65536 (m ((c : Thread nD τ).loc main_arg4)) shapeCasts_S65536_S1x65536 := by
  show StableHlo.after hostOps0 (fun b => m (c, b)) (Proc.devRef .tc main_v29) = _
  after_results_simp
  rfl

/-- The outer product flattened to a row. -/
theorem V_v30 (c : Dev nD) : V m c main_v30 = shapeCast S1x65536 (phiOf m c) shapeCasts_S256x256_S1x65536 := by
  show StableHlo.after hostOps0 (fun b => m (c, b)) (Proc.devRef .tc main_v30) = _
  after_results_simp
  rfl

/-- The weights flattened to a row. -/
theorem V_v31 (c : Dev nD) : V m c main_v31 = shapeCast S1x65536 (m ((c : Thread nD τ).loc main_arg2)) shapeCasts_S256x256_S1x65536 := by
  show StableHlo.after hostOps0 (fun b => m (c, b)) (Proc.devRef .tc main_v31) = _
  after_results_simp
  rfl

/-- The activation as a row. -/
theorem V_v32 (c : Dev nD) : V m c main_v32 = shapeCast S1x512 (psiOf m c) shapeCasts_S512x1_S1x512 := by
  show StableHlo.after hostOps0 (fun b => m (c, b)) (Proc.devRef .tc main_v32) = _
  after_results_simp
  rfl

end Cert.KernelIdeal.Cell

end
-- ==== Proof.KValue.lean ====
/-
  The kernel program's three results.

  Weight update.  At every tile the pipeline writes the tile's block back into the line of 65536 positions, and that
  block is a block of ONE function of the line's index: the weight update over the flattened arrays (`lineOf`).  The
  32 blocks cover the line (position j lies in tile j / 2048), so after the run the line holds that function; the one
  operation after the region cuts it into the 256 x 256 grid.

  State update.  Only the last tile writes the state column back, and what it writes is the column
  c999 * z + c001 * (totals after the last tile + bias) (`colOf`); its single block is the whole column.

  New neuron state.  Computed before the region and touched by nothing afterwards.
-/
import proofs.«101573_j22960895164747_2_alg».proof.Proof.KRead
import proofs.«101573_j22960895164747_2_alg».proof.Proof.KHost
import Idealize.ShloMosaic.Lib.Pipeline.Value
import Idealize.ShloMosaic.Lib.StableHlo.Run

set_option maxRecDepth 16384

noncomputable section

open scoped BigOperators

namespace Cert.KernelIdeal.Cell

open Idealize.ShloMosaic Idealize.ShloMosaic.TcCoe Idealize.SL.Sem Idealize.ShloMosaic.ValueIdx
open Idealize.ShloMosaic.Pipeline (Dat)
open Cert.KernelIdeal Cert.KernelIdeal.Gen Cert.Cell

variable (m : (ℓ : Loc nD τ sig) → Buf (Elt Ideal) ℓ) (ρ : Dev nD → PrngReg)

/-! ## The weight update -/

/-- The weight update over the line, of the arrays the region finds. -/
def lineOf (c : Dev nD) : FVec Ideal S1x65536 .f32 :=
  wRow (V m c main_v31) (V m c main_v29) (V m c main_v30) (V m c main_v32) (V m c main_arg5)

/-- What tile t writes back is block t of the line. -/
theorem flushed8_eq (c : Dev nD) (t : Fin cfg0.N) :
    (dats m 0 c).flushed 8 t = ((cfg0.win 8).blk t).view.read (Elt Ideal) (lineOf m c) := by
  show (cfg0.win 8).cut (grid0.coords t) ((dats m 0 c).after 8 t) = _
  rw [after0_8, out8_eq]
  funext y
  obtain ⟨u, l, rfl⟩ : ∃ (u : Fin 1) (l : Fin 2048), y = (ix2 u l : S1x2048.Idx) := ⟨y 0, y 1, eq_ix2 y⟩
  obtain rfl : u = 0 := Subsingleton.elim _ _
  show k0_pay4 (psiB m c t) (dB m c t) (cB m c t) (phiB m c t) (wB m c t) (ix2 (0 : Fin 1) l)
    = lineOf m c (((cfg0.win 8).blk t).view.emb (ix2 (0 : Fin 1) l))
  rw [emb8]
  exact tile_update m c t l

/-- A position of the line is in tile t's block iff each coordinate is in the block's range. -/
theorem mem_blk8 (t : Fin cfg0.N) (i : S1x65536.Idx) :
    i ∈ ((cfg0.win 8).blk t).view.set ↔ ∀ a : Fin 2, win0_8.index t a * S1x2048.size a ≤ (i a).val
      ∧ (i a).val < win0_8.index t a * S1x2048.size a + S1x2048.size a := by
  show i ∈ ((View.whole main_v33_0).slice (win0_8.rect t)).set ↔ _
  rw [View.set_slice_whole, Rect.mem_set_unit]
  exact Iff.rfl

/-- After the run the line holds the weight update: position j lies in tile j / 2048. -/
theorem final8 (c : Dev nD) : (dats m 0 c).arrAt 8 cfg0.N = lineOf m c :=
  (dats m 0 c).arrAt_eq_of_cover 8 (lineOf m c) (fun t _ => flushed8_eq m c t) fun i => by
    have hN : cfg0.N = 32 := N_0
    have h0 : (i 0).val < 1 := (i 0).isLt
    have h1 : (i 1).val < 65536 := (i 1).isLt
    have hq : (i 1).val / 2048 < cfg0.N := by rw [hN]; omega
    refine ⟨⟨(i 1).val / 2048, hq⟩, flush0_8 _, ?_⟩
    rw [mem_blk8]
    obtain ⟨e0, e1⟩ := idx8 ⟨(i 1).val / 2048, hq⟩
    intro a
    match a with
    | ⟨0, _⟩ =>
      show win0_8.index ⟨(i 1).val / 2048, hq⟩ (0 : Fin 2) * 1 ≤ (i 0).val
        ∧ (i 0).val < win0_8.index ⟨(i 1).val / 2048, hq⟩ (0 : Fin 2) * 1 + 1
      rw [e0]; omega
    | ⟨1, _⟩ =>
      show win0_8.index ⟨(i 1).val / 2048, hq⟩ (1 : Fin 2) * 2048 ≤ (i 1).val
        ∧ (i 1).val < win0_8.index ⟨(i 1).val / 2048, hq⟩ (1 : Fin 2) * 2048 + 2048
      rw [e1]; dsimp only; omega

/-- The one operation after the region cuts the line into the grid. -/
theorem tail_v34 (c : Dev nD) :
    Pipeline.afterTail₀ cfgs (dats m) 0 (V0 m) [hostOps1] c main_v34
      = shapeCast S256x256 (lineOf m c) shapeCasts_S1x65536_S256x256 := by
  unfold Pipeline.afterTail₀
  show StableHlo.after hostOps1 _ (Proc.devRef .tc main_v34) = _
  after_results
  exact congrArg (fun x => shapeCast S256x256 x shapeCasts_S1x65536_S256x256)
    ((Pipeline.withArrays_arr spec0 launch0.win.arr_inj c _ _ 8).trans (final8 m c))

/-! ## The state update -/

/-- The last tile's number is below the number of tiles. -/
theorem last_lt : 31 < cfg0.N := by rw [show cfg0.N = 32 from N_0]; decide

/-- The state column the last tile stores. -/
def colOf (c : Dev nD) : FVec Ideal S512x1 .f32 :=
  zCol (V m c main_arg3) (totals m c 31 last_lt) (V m c main_v28)

/-- What the last tile writes back is the state column (its block is the whole column). -/
theorem flushed9_eq (c : Dev nD) (t : Fin cfg0.N) (hf : (cfg0.win 9).flush t = true) :
    (dats m 0 c).flushed 9 t = ((cfg0.win 9).blk t).view.read (Elt Ideal) (colOf m c) := by
  have h31 : t.val % 32 = 31 := (flush0_9 t).mp hf
  have hN : cfg0.N = 32 := N_0
  have ht : t.val = 31 := by have := t.isLt; omega
  obtain ⟨n, hn⟩ := t
  obtain rfl : n = 31 := ht
  show (cfg0.win 9).cut (grid0.coords ⟨31, hn⟩) ((dats m 0 c).after 9 ⟨31, hn⟩) = _
  rw [after0_9, out9_eq m c ⟨31, hn⟩ h31]
  funext y
  obtain ⟨r, u, rfl⟩ : ∃ (r : Fin 512) (u : Fin 1), y = (ix2 r u : S512x1.Idx) := ⟨y 0, y 1, eq_ix2 y⟩
  show k0_pay2 (zB m c ⟨31, hn⟩) (totals m c 31 hn) (biasB m c ⟨31, hn⟩) (ix2 r u)
    = colOf m c (((cfg0.win 9).blk ⟨31, hn⟩).view.emb (ix2 r u))
  rw [emb9]
  exact state_update m c ⟨31, hn⟩ (totals m c 31 hn) r u

theorem mem_blk9 (t : Fin cfg0.N) (i : S512x1.Idx) :
    i ∈ ((cfg0.win 9).blk t).view.set ↔ ∀ a : Fin 2, win0_9.index t a * S512x1.size a ≤ (i a).val
      ∧ (i a).val < win0_9.index t a * S512x1.size a + S512x1.size a := by
  show i ∈ ((View.whole main_v33_1).slice (win0_9.rect t)).set ↔ _
  rw [View.set_slice_whole, Rect.mem_set_unit]
  exact Iff.rfl

/-- After the run the state array holds the state column. -/
theorem final9 (c : Dev nD) : (dats m 0 c).arrAt 9 cfg0.N = colOf m c :=
  (dats m 0 c).arrAt_eq_of_cover 9 (colOf m c) (flushed9_eq m c) fun i => by
    have h0 : (i 0).val < 512 := (i 0).isLt
    have h1 : (i 1).val < 1 := (i 1).isLt
    refine ⟨⟨31, last_lt⟩, (flush0_9 _).mpr rfl, ?_⟩
    rw [mem_blk9]
    obtain ⟨e0, e1⟩ := idx9 ⟨31, last_lt⟩
    intro a
    match a with
    | ⟨0, _⟩ =>
      show win0_9.index ⟨31, last_lt⟩ (0 : Fin 2) * 512 ≤ (i 0).val
        ∧ (i 0).val < win0_9.index ⟨31, last_lt⟩ (0 : Fin 2) * 512 + 512
      rw [e0]; omega
    | ⟨1, _⟩ =>
      show win0_9.index ⟨31, last_lt⟩ (1 : Fin 2) * 1 ≤ (i 1).val
        ∧ (i 1).val < win0_9.index ⟨31, last_lt⟩ (1 : Fin 2) * 1 + 1
      rw [e1]; omega

/-! ## The new neuron state -/

/-- Neither the region nor the operation after it writes the new neuron state. -/
theorem tail_v13 (c : Dev nD) : Pipeline.afterTail₀ cfgs (dats m) 0 (V0 m) [hostOps1] c main_v13 = V m c main_v13 := by
  unfold Pipeline.afterTail₀
  rw [StableHlo.after_of_forall_not_mem (b := Proc.devRef .tc main_v13) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_v13 (by exact (by decide : ∀ w, Pipeline.arrRef spec0 w ≠ main_v13))]

/-! ## The run, read -/

/-- Every weakly fair execution of the kernel's program terminates with its three results at these values and its
    arguments unchanged. -/
theorem run : θ_run defs (onTc (τ := τ) (main (F := Ideal))) ⟨m, fun _ => 0, ρ⟩ fun r => ∀ c : Dev nD,
      r.2.mem ((c.tc : Thread nD τ).loc main_v13) = V m c main_v13
      ∧ r.2.mem ((c.tc : Thread nD τ).loc main_v34) = shapeCast S256x256 (lineOf m c) shapeCasts_S1x65536_S256x256
      ∧ r.2.mem ((c.tc : Thread nD τ).loc main_v33_1) = colOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c =>
    ⟨((h c).2 main_v13 (Pipeline.mem_restRefs_of main_v13 (by decide) (by decide))).trans (tail_v13 m c),
      ((h c).2 main_v34 (Pipeline.mem_restRefs_of main_v34 (by decide) (by decide))).trans (tail_v34 m c),
      ((h c).1 9).trans (final9 m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 7).trans ((((dats m) 0 c).arrAt_in 7 rfl _).trans ((A_eq m c 7).trans (V_main_arg3 m c))),
      (((h c).2 main_arg4 (Pipeline.mem_restRefs_of main_arg4 (by decide) (by decide))).trans (W_main_arg4 m (dats m) c)),
      ((h c).1 1).trans ((((dats m) 0 c).arrAt_in 1 rfl _).trans ((A_eq m c 1).trans (V_main_arg5 m c))),
      (((h c).2 main_arg6 (Pipeline.mem_restRefs_of main_arg6 (by decide) (by decide))).trans (W_main_arg6 m (dats m) c)),
      ((h c).1 5).trans ((((dats m) 0 c).arrAt_in 5 rfl _).trans ((A_eq m c 5).trans (V_main_arg7 m c))),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c))⟩)
    (run_main m ρ)

end Cert.KernelIdeal.Cell

end
-- ==== Proof.KResults.lean ====
/-
  The kernel program's two large results are the specification's functions of its arguments.

  The line the region leaves is the weight update over the flattened W, C, Phi and psi; cutting it back into the grid
  gives `wNew`.  The state column the last tile stores is c999 * z + c001 * (totals + (f + u)), and the totals after the
  last tile are the 32 tiles' shares of each row's drive over the flattened outer product, which is `zNew`.
-/
import proofs.«101573_j22960895164747_2_alg».proof.Proof.KValue

set_option maxRecDepth 16384

noncomputable section

open scoped BigOperators

namespace Cert.KernelIdeal.Cell

open Idealize.ShloMosaic Idealize.ShloMosaic.TcCoe Idealize.SL.Sem Idealize.ShloMosaic.ValueIdx
open Cert.KernelIdeal Cert.KernelIdeal.Gen Cert.Cell

variable (m : (ℓ : Loc nD τ sig) → Buf (Elt Ideal) ℓ)

/-- The grid cut from the line is the updated weights. -/
theorem grid_eq (c : Dev nD) :
    shapeCast S256x256 (lineOf m c) shapeCasts_S1x65536_S256x256
      = wNew (m ((c : Thread nD τ).loc main_arg2)) (phiOf m c) (m ((c : Thread nD τ).loc main_arg4)) (m ((c : Thread nD τ).loc main_arg5)) (psiOf m c) := by
  unfold lineOf
  rw [V_v31, V_v29, V_v30, V_v32, V_main_arg5]
  exact wRow_grid (m ((c : Thread nD τ).loc main_arg2)) (phiOf m c) (m ((c : Thread nD τ).loc main_arg4)) (m ((c : Thread nD τ).loc main_arg5)) (psiOf m c)
    shapeCasts_S256x256_S1x65536 shapeCasts_S256x256_S1x65536 shapeCasts_S65536_S1x65536 shapeCasts_S512x1_S1x512
    shapeCasts_S1x65536_S256x256

/-- The state column is the updated astrocyte state. -/
theorem col_eq (c : Dev nD) :
    colOf m c = zNew (m ((c : Thread nD τ).loc main_arg3)) (fOf m c) (uOf m c) (m ((c : Thread nD τ).loc main_arg7)) (phiOf m c) := by
  unfold colOf
  rw [V_main_arg3, V_v28]
  refine zCol_eq (m ((c : Thread nD τ).loc main_arg3)) (fOf m c) (uOf m c) (totals m c 31 last_lt) (m ((c : Thread nD τ).loc main_arg7)) (phiOf m c)
    shapeCasts_S256x256_S1x65536 fun r => ?_
  rw [totals_apply m c r 31 last_lt, V_main_arg7, V_v30]

end Cert.KernelIdeal.Cell

end
-- ==== Proof.RefSide.lean ====
/-
  The reference's two large results are the specification's functions.

  Read one operation at a time, the reference's weight update at entry (a, b) reshapes the column of 65536 values
  C(j) * Phi(cell j) + sum over k of D(j, k) * psi(k) back to the grid, so at (a, b) it reads position
  j = a * 256 + b; swapping the factors under the sum gives the specification's form.  Its state update adds the three
  summands as (f + drive) + u, which regroups to drive + (f + u).
-/
import proofs.«101573_j22960895164747_2_alg».proof.Proof.Gen.ReferenceIdeal.Read
import proofs.«101573_j22960895164747_2_alg».proof.Proof.Spec

noncomputable section

open scoped BigOperators

namespace Cert.ReferenceIdeal.Cell

open Idealize.ShloMosaic Idealize.ShloMosaic.ValueIdx Cert.ReferenceIdeal Cert.ReferenceIdeal.Read Cert.Cell

/-- The reference's weight update is `wNew` of the weights, the outer product, C, D and the activation. -/
theorem wNew_ref (x0 : FVec Ideal S512x1 .f32) (x1 : FVec Ideal S256x1 .f32) (x2 : FVec Ideal S256x256 .f32)
    (x3 : FVec Ideal S512x1 .f32) (x4 : FVec Ideal S65536 .f32) (x5 : FVec Ideal S65536x512 .f32)
    (x8 : FVec Ideal S256x512 .f32) :
    val_main_v35 (F := Ideal) x0 x1 x2 x3 x4 x5 x8
      = wNew x2 (val_main_v23 (F := Ideal) x0 x1 x2 x8) x4 x5 (val_main_v25 (F := Ideal) x3) := by
  funext i
  have h0 : (i 0).val < 256 := idx2_lt0 i
  have h1 : (i 1).val < 256 := idx2_lt1 i
  have e28 : idx_main_v28 (idx_main_v32 i) = ix1 (pos i) := funext fun a => Fin.ext (by
    match a with
    | ⟨0, _⟩ => show ((i 0).val * 256 + (i 1).val) / 1 = (i 0).val * 256 + (i 1).val; omega)
  have e24 : idx_main_v24 (idx_main_v32 i) = i := funext fun a => Fin.ext (by
    match a with
    | ⟨0, _⟩ => show (((i 0).val * 256 + (i 1).val) / 1 * 1 + 0) / 256 = (i 0).val; omega
    | ⟨1, _⟩ => show (((i 0).val * 256 + (i 1).val) / 1 * 1 + 0) % 256 = (i 1).val; omega)
  have el : ∀ k : Fin 512, lidx_main_v30 (idx_main_v32 i) k = ix2 (pos i) k := fun k => funext fun a => Fin.ext (by
    match a with
    | ⟨0, _⟩ => show ((i 0).val * 256 + (i 1).val) / 1 = (i 0).val * 256 + (i 1).val; omega
    | ⟨1, _⟩ => rfl)
  have er : ∀ k : Fin 512, ridx_main_v30 (idx_main_v32 i) k = ix2 k (0 : Fin 1) := fun k => funext fun a => Fin.ext (by
    match a with
    | ⟨0, _⟩ => rfl
    | ⟨1, _⟩ => rfl)
  rw [val_main_v35_apply, val_main_v27_apply, val_main_v26_apply, val_main_cst_5_apply, val_main_v34_apply,
    val_main_v33_apply, val_main_cst_6_apply, val_main_v32_apply, val_main_v31_apply, val_main_v29_apply,
    val_main_v28_apply, val_main_v24_apply, val_main_v30_apply, e28, e24]
  simp only [el, er]
  rw [sum_mul_comm (fun k : Fin 512 => x5 (ix2 (pos i) k)) (fun k : Fin 512 => val_main_v25 (F := Ideal) x3 (ix2 k (0 : Fin 1)))]
  rfl

/-- The reference's state update is `zNew` of the state, the row-scaled activation, the input drive, H and the outer
    product. -/
theorem zNew_ref (x0 : FVec Ideal S512x1 .f32) (x1 : FVec Ideal S256x1 .f32) (x2 : FVec Ideal S256x256 .f32)
    (x3 : FVec Ideal S512x1 .f32) (x6 : FVec Ideal S512 .f32) (x7 : FVec Ideal S512x65536 .f32)
    (x8 : FVec Ideal S256x512 .f32) (x9 : FVec Ideal S512x512 .f32) :
    val_main_v46 (F := Ideal) x0 x1 x2 x3 x6 x7 x8 x9
      = zNew x3 (val_main_v39 (F := Ideal) x3 x6) (val_main_v42 (F := Ideal) x0 x9) x7
          (val_main_v23 (F := Ideal) x0 x1 x2 x8) := by
  funext i
  have h1 : (i 1).val < 1 := idx2_lt1 i
  have el : ∀ j : Fin 65536, lidx_main_v40 i j = ix2 (rowOf i) j := fun j => funext fun a => Fin.ext (by
    match a with
    | ⟨0, _⟩ => rfl
    | ⟨1, _⟩ => rfl)
  have er : ∀ j : Fin 65536, idx_main_v24 (ridx_main_v40 i j) = cell j := fun j => funext fun a => Fin.ext (by
    have hj := j.isLt
    match a with
    | ⟨0, _⟩ => show (j.val * 1 + (i 1).val) / 256 = j.val / 256; omega
    | ⟨1, _⟩ => show (j.val * 1 + (i 1).val) % 256 = j.val % 256; omega)
  rw [val_main_v46_apply, val_main_v37_apply, val_main_v36_apply, val_main_cst_7_apply, val_main_v45_apply,
    val_main_v44_apply, val_main_cst_8_apply, val_main_v43_apply, val_main_v41_apply, val_main_v40_apply]
  simp only [val_main_v24_apply, el, er]
  show c999 * x3 i + c001 * ((val_main_v39 (F := Ideal) x3 x6 i + drive x7 (val_main_v23 (F := Ideal) x0 x1 x2 x8) (rowOf i))
      + val_main_v42 (F := Ideal) x0 x9 i) = _
  rw [regroup]
  rfl

end Cert.ReferenceIdeal.Cell

end
-- ==== Proof.lean ====
/-
  A single step of a neuron-astrocyte recurrent cell: the kernel's program against the plain reference.

  Both programs compute three results from ten arrays.
    * The new neuron state  x' = c9 x + c1 (W sigma(x)) + W1 I  is computed by the same host operations in both.
    * The updated weights, at entry (a, b) of the 256 x 256 grid with j = 256 a + b:
          c9 W(a, b) + c1 (C(j) Phi(a, b) + sum over k of psi(k) D(j, k)),
      Phi the outer product of sigma(x') with itself and psi = tanh z.  The reference forms the column of 65536 values and
      reshapes it to the grid; the kernel flattens W, C and Phi to a line, computes the update tile by tile (32 tiles of
      2048 positions, the products against D on the matrix unit, whose half-precision rounding of the operands is the
      identity on the extended reals), and the host reshapes the line to the grid.  The two differ by the order of the
      factors under the sum.
    * The updated astrocyte state, at row r:
          c999 z(r) + c001 (sum over j of H(r, j) Phi(cell j) + f(r) + u(r)),
      f the row-scaled activation and u the input drive.  The kernel accumulates the sum over the 32 tiles in a
      scratch column that starts at zero, and adds the three summands in another grouping than the reference.
  Only commutativity and associativity of + and * on the extended reals are used, so the precondition (every input
  finite) is never opened; the four scale factors are the same single-precision words on both sides and are never
  evaluated.  The idealization rewrote nothing, so `preserves` is trivial.

  The three frames are the generated ones (the reference's from its generated run).  The kernel's values are read off
  its generated frame run: the pieces each case of the body leaves (KPieces), what the buffers hold tile by tile (KAcc),
  the blocks read off their arrays (KBlocks), the stored values at an entry (KPay, KRead), the arrays the region finds
  (KHost), and the blocks put together into the arrays after the run (KValue, KResults).  The reference's values are
  its generated stages read at an entry (RefSide).
-/
import proofs.«101573_j22960895164747_2_alg».proof.Defs
import proofs.«101573_j22960895164747_2_alg».proof.Proof.Gen.Kernel
import proofs.«101573_j22960895164747_2_alg».proof.Proof.Gen.Kernel.Skeleton
import proofs.«101573_j22960895164747_2_alg».proof.Proof.Gen.Kernel.Launch
import proofs.«101573_j22960895164747_2_alg».proof.Proof.Gen.Kernel.Points
import proofs.«101573_j22960895164747_2_alg».proof.Proof.Gen.Kernel.Frame
import proofs.«101573_j22960895164747_2_alg».proof.Proof.Gen.KernelIdeal
import proofs.«101573_j22960895164747_2_alg».proof.Proof.Gen.KernelIdeal.Skeleton
import proofs.«101573_j22960895164747_2_alg».proof.Proof.Gen.KernelIdeal.Launch
import proofs.«101573_j22960895164747_2_alg».proof.Proof.Gen.KernelIdeal.Points
import proofs.«101573_j22960895164747_2_alg».proof.Proof.Gen.KernelIdeal.Frame
import proofs.«101573_j22960895164747_2_alg».proof.Proof.Gen.ReferenceIdeal
import proofs.«101573_j22960895164747_2_alg».proof.Proof.Gen.Pre_finite_inputs
import proofs.«101573_j22960895164747_2_alg».proof.Proof.Gen.ReferenceIdeal.Run
import proofs.«101573_j22960895164747_2_alg».proof.Proof.Gen.ReferenceIdeal.Read
import proofs.«101573_j22960895164747_2_alg».proof.Proof.KResults
import proofs.«101573_j22960895164747_2_alg».proof.Proof.RefSide
import Idealize.ShloMosaic.Adequacy
import Idealize.ShloMosaic.Init

set_option maxRecDepth 16384

noncomputable section

namespace Cert.Proof

open Idealize.ShloMosaic Idealize.ShloMosaic.TcCoe Idealize.SL.Sem Cert.Cell

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

/-- Both programs end with the new neuron state, `wNew` and `zNew` of the same arguments. -/
theorem algebraic : Cert.algebraic_KernelIdeal_ReferenceIdeal := by
  intro m ρ m' ρ' _ hagree
  refine ⟨fun c => Cert.ReferenceIdeal.Read.val_main_v13 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg8)),
    fun c => wNew (m ((c.tc : Thread Cert.KernelIdeal.nD Cert.KernelIdeal.τ).loc Cert.KernelIdeal.main_arg2)) (Cert.KernelIdeal.Cell.phiOf m c) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (Cert.KernelIdeal.Cell.psiOf m c),
    fun c => zNew (m ((c.tc : Thread Cert.KernelIdeal.nD Cert.KernelIdeal.τ).loc Cert.KernelIdeal.main_arg3)) (Cert.KernelIdeal.Cell.fOf m c) (Cert.KernelIdeal.Cell.uOf m c) (m ((c.tc : Thread Cert.KernelIdeal.nD Cert.KernelIdeal.τ).loc Cert.KernelIdeal.main_arg7)) (Cert.KernelIdeal.Cell.phiOf m c), ?_, ?_⟩
  · refine (θ_run Cert.KernelIdeal.defs _ _).mono (fun _ h c => ?_) (Cert.KernelIdeal.Cell.run m ρ)
    obtain ⟨h13, h34, h331, hargs⟩ := h c
    exact ⟨h13.trans (Cert.KernelIdeal.Cell.V_v13 m c), h34.trans (Cert.KernelIdeal.Cell.grid_eq m c), h331.trans (Cert.KernelIdeal.Cell.col_eq m c), hargs⟩
  · refine (θ_run Cert.ReferenceIdeal.defs _ _).mono (fun _ h c => ?_) (Cert.ReferenceIdeal.Value.run (F := Ideal) m' ρ')
    obtain ⟨h13, h35, h46, hargs⟩ := h c
    obtain ⟨e0, e1, e2, e3, e4, e5, e6, e7, e8, e9⟩ := hagree c
    refine ⟨h13.trans ?_, h35.trans ?_, h46.trans ?_, hargs⟩
    · refine (Cert.ReferenceIdeal.Read.val_main_v13_eq _ _ _ _).trans ?_
      rw [e0, e1, e2, e8]
    · refine (Cert.ReferenceIdeal.Read.val_main_v35_eq _ _ _ _ _ _ _).trans ?_
      rw [Cert.ReferenceIdeal.Cell.wNew_ref, e0, e1, e2, e3, e4, e5, e8]
    · refine (Cert.ReferenceIdeal.Read.val_main_v46_eq _ _ _ _ _ _ _ _).trans ?_
      rw [Cert.ReferenceIdeal.Cell.zNew_ref, e0, e1, e2, e3, e6, e7, e8, e9]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
